-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096x2048 : Shape := ⟨2, ![4096, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S16384x1024 .f32) (main_arg1 : FVec F S4096x1024 .f32) (main_arg2 : FVec F S4096x2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S16384x2048 : Shape := ⟨2, ![16384, 2048]⟩
abbrev S1024x1024 : Shape := ⟨2, ![1024, 1024]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 27
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x2048, .bf16⟩
  | .hbm, ⟨26, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x1, .f32⟩
  | .local _ .vmem, ⟨9, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_cst_1 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_cst_2 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_19 : BitVec 32 := 0#32
  let v35 : BitVec 1 := Scalar.cmpi .ne v34 c0_i32_19
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bitsLt_bf16_f32 : FTy.bits .bf16 < FTy.bits .f32
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  reduces_S1024x1024_S1024 : S1024x1024.Reduces [1] S1024
  shapeCasts_S1024_S1024x1 : S1024.ShapeCasts S1024x1
  broadcasts_S1024x1_S1024x2048 : S1024x1.Broadcasts S1024x2048
  dot_S1024x1024_S1024x1024_S1024x1024_1_0_0_1_n_n_wf : DotDims.WF S1024x1024 S1024x1024 S1024x1024 [1] [0] [0] [1] [] []
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x2048.size a
  hwx0_2 : ∀ i : grid0.Coords, EltTy.bits .bf16 = 32 ∨ (Rect.block (s := S4096x2048) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_call0_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1024 : Shape := ⟨2, ![16384, 1024]⟩
abbrev S4096x1024 : Shape := ⟨2, ![4096, 1024]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S16384x4096 : Shape := ⟨2, ![16384, 4096]⟩
abbrev S16384x2048 : Shape := ⟨2, ![16384, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S_, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x4096, .f32⟩
  | .hbm, ⟨46, _⟩ => ⟨S16384x4096, .f32⟩
  | .hbm, ⟨47, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S16384x4096 : S_.BroadcastsInDim S16384x4096 (![] : Fin 0 → Fin S16384x4096.rank)
  reducesTo_S16384x4096_S16384_d1 : S16384x4096.ReducesTo [1] S16384
  bcast_S_S16384 : S_.BroadcastsInDim S16384 (![] : Fin 0 → Fin S16384.rank)
  bcast_S16384x1_S16384x4096_0_1 : S16384x1.BroadcastsInDim S16384x4096 (![0, 1] : Fin 2 → Fin S16384x4096.rank)
  dot_S16384x1024_S4096x1024_S16384x4096_1_1_0_0_n_n_wf : DotDims.WF S16384x1024 S4096x1024 S16384x4096 [1] [1] [0] [0] [] []
  dot_S16384x4096_S4096x2048_S16384x2048_1_0_0_1_n_n_wf : DotDims.WF S16384x4096 S4096x2048 S16384x2048 [1] [0] [0] [1] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf
def dot_S16384x4096_S4096x2048_S16384x2048_1_0_0_1_n_n : DotDims S16384x4096 S4096x2048 S16384x2048 where
  lhsContracting := [1]
  rhsContracting := [0]
  lhsNonContracting := [0]
  rhsNonContracting := [1]
  lhsBatch := []
  rhsBatch := []
  wf := dot_S16384x4096_S4096x2048_S16384x2048_1_0_0_1_n_n_wf

class Facts : Prop extends Facts₀ where

variable [Facts]
-- ==== Proof.LibMatChain.lean ====
/-
  General lemmas: products of matrices over the extended reals, and when they associate.

  On the extended reals a product does not distribute over a sum once an infinity is among the terms, so a chain of
  matrix products cannot be regrouped in general. It can when every entry is a real number: then each sum and each
  product is the coercion of the same expression over the reals, where the finite sums commute.

  * `IsReal`: an extended real that is the coercion of a real; `isReal_of_abs_lt_top`: one whose absolute value
    max x (-x) lies strictly below +∞ is such;
  * `coe_sum`: the coercion of a finite sum of reals is the sum of the coercions;
  * `sum_mul_sum_assoc`: for real families, Σ_k x k · (Σ_l A k l · B l) = Σ_l (Σ_k x k · A k l) · B l;
  * `matProd`: the product of an [a, k] by a [k, n] array as an [a, n] array, entry (p, j) the sum over q of
    x (p, q) · w (q, j); `matProd_assoc`: x · (A · B) = (x · A) · B when all three hold reals only;
  * `matProd_congr`: entry (p, j) reads only row p of the left factor and column j of the right one.
  Nothing here mentions a program: the extents are variables.
-/
import Idealize.ShloMosaic.Lib.ValueIdx
import Idealize.ShloMosaic.PureOps.Ideal.Laws

noncomputable section

namespace Cert.LibMatChain

open Idealize.ShloMosaic Idealize.ShloMosaic.ValueIdx

/-- An extended real that is a real number. -/
def IsReal (x : EReal) : Prop := ∃ r : ℝ, x = (r : EReal)

/-- An extended real whose absolute value, max x (-x), is strictly below +∞ is a real number: at either infinity the
    maximum is +∞. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite sum of reals is the sum of the coercions. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- For families of reals, a vector times the column j of a product A · B is the vector times A, times that column of
    B: both are the double sum over (k, l) of x k · A k l · B l, taken over the reals. -/
theorem sum_mul_sum_assoc {κ ι : Type*} [Fintype κ] [Fintype ι] (x : κ → EReal) (A : κ → ι → EReal) (B : ι → EReal)
    (hx : ∀ k, IsReal (x k)) (hA : ∀ k l, IsReal (A k l)) (hB : ∀ l, IsReal (B l)) :
    ∑ k, x k * ∑ l, A k l * B l = ∑ l, (∑ k, x k * A k l) * B l := by
  choose x' hx' using hx
  choose A' hA' using hA
  choose B' hB' using hB
  simp only [hx', hA', hB', ← EReal.coe_mul, ← coe_sum]
  refine congrArg _ ?_
  simp only [Finset.mul_sum, Finset.sum_mul]
  rw [Finset.sum_comm]
  exact Finset.sum_congr rfl fun l _ => Finset.sum_congr rfl fun k _ => (mul_assoc _ _ _).symm

variable {a k l n : ℕ}

/-- The product of an [a, k] by a [k, n] array: entry (p, j) is the sum over q of x (p, q) · w (q, j). -/
def matProd (x : (⟨2, ![a, k]⟩ : Shape).Idx → EReal) (w : (⟨2, ![k, n]⟩ : Shape).Idx → EReal) :
    (⟨2, ![a, n]⟩ : Shape).Idx → EReal :=
  fun i => ∑ q : Fin k, x (ix2 (i 0) q) * w (ix2 q (i 1))

theorem matProd_ix2 (x : (⟨2, ![a, k]⟩ : Shape).Idx → EReal) (w : (⟨2, ![k, n]⟩ : Shape).Idx → EReal) (p : Fin a) (j : Fin n) :
    matProd x w (ix2 p j) = ∑ q : Fin k, x (ix2 p q) * w (ix2 q j) := rfl

/-- Entry (p, j) of a product reads only row p of the left factor and column j of the right one. -/
theorem matProd_congr {a' : ℕ} (X : (⟨2, ![a, k]⟩ : Shape).Idx → EReal) (W : (⟨2, ![k, n]⟩ : Shape).Idx → EReal)
    (x : (⟨2, ![a', k]⟩ : Shape).Idx → EReal) (w : (⟨2, ![k, n]⟩ : Shape).Idx → EReal) (p : Fin a') (p' : Fin a) (j : Fin n)
    (hx : ∀ q : Fin k, x (ix2 p q) = X (ix2 p' q)) (hw : ∀ q : Fin k, w (ix2 q j) = W (ix2 q j)) :
    matProd x w (ix2 p j) = matProd X W (ix2 p' j) := by
  rw [matProd_ix2, matProd_ix2]
  exact Finset.sum_congr rfl fun q _ => by rw [hx q, hw q]

/-- Three arrays of reals: x · (A · B) = (x · A) · B. -/
theorem matProd_assoc (x : (⟨2, ![a, k]⟩ : Shape).Idx → EReal) (A : (⟨2, ![k, l]⟩ : Shape).Idx → EReal)
    (B : (⟨2, ![l, n]⟩ : Shape).Idx → EReal) (hx : ∀ i, IsReal (x i)) (hA : ∀ i, IsReal (A i)) (hB : ∀ i, IsReal (B i)) :
    matProd x (matProd A B) = matProd (matProd x A) B := by
  funext i
  obtain ⟨p, j, rfl⟩ : ∃ (p : Fin a) (j : Fin n), i = ix2 p j := ⟨i 0, i 1, eq_ix2 i⟩
  rw [matProd_ix2, matProd_ix2]
  simp only [matProd_ix2]
  exact sum_mul_sum_assoc (fun q => x (ix2 p q)) (fun q r => A (ix2 q r)) (fun r => B (ix2 r j))
    (fun q => hx _) (fun q r => hA _) (fun r => hB _)

end Cert.LibMatChain

end
-- ==== Proof.LibSelfAttention.lean ====
/-
  Dense self-attention over the rows of one array, on the extended reals.

  For an [N, D] array x and a slope c: the score of rows i and n is the inner product of the two rows; the activation
  is the leaky rectifier of the score (x itself when 0 ≤ x, c · x otherwise); the weight of n for i is
  exp (activation − the row's maximum); the total is the sum of the row's weights. Two arrangements of the result:

  * mix, then normalise:  (Σ_n weight i n · x (n, d)) / total i,
  * normalise, then mix:   Σ_n (weight i n / total i) · x (n, d).

  On the extended reals a quotient does not pass through a sum in general. When every entry of x and the slope are
  real numbers, every score, activation, maximum (N > 0) and weight is a real, every weight is positive, so the total
  is a positive real, and both arrangements are the coercion of one expression over the reals.

  General lemmas: nothing here mentions a program, the extents N and D and the slope are variables. It builds on the
  real-number predicate and the coercion of finite sums of the matrix-chain lemma file, which it imports.
-/
import Idealize.ShloMosaic.Lib.ValueIdx
import Idealize.ShloMosaic.PureOps.Ideal.Laws
import proofs.«127795_j83519934038568_2_alg».proof.Proof.LibMatChain

noncomputable section

namespace Cert.Attn

open Idealize.ShloMosaic Idealize.ShloMosaic.ValueIdx Cert.LibMatChain

/-! ## Real extended reals are closed under the operations used -/

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_max {x y : EReal} (hx : IsReal x) (hy : IsReal y) : IsReal (max x y) := by
  rcases max_choice x y with h | h <;> rw [h] <;> assumption

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- The fold of max from −∞ over a nonempty finite family of reals is a real. -/
theorem isReal_foldMax {ι : Type*} [DecidableEq ι] (s : Finset ι) (f : ι → EReal) (hf : ∀ i, IsReal (f i)) :
    s.fold max ⊥ f = ⊥ ∧ s = ∅ ∨ IsReal (s.fold max ⊥ f) := by
  induction s using Finset.induction_on with
  | empty => exact Or.inl ⟨Finset.fold_empty, rfl⟩
  | insert a s ha ih =>
    right
    rw [Finset.fold_insert ha]
    rcases ih with ⟨h, -⟩ | h
    · rw [h, max_bot_right]; exact hf a
    · exact isReal_max (hf a) h

/-! ## The attention of an array with itself -/

variable {N D : ℕ}

/-- The score of rows i and n: their inner product. -/
def score (x : (⟨2, ![N, D]⟩ : Shape).Idx → EReal) (i n : Fin N) : EReal := ∑ q : Fin D, x (ix2 i q) * x (ix2 n q)

/-- The leaky rectifier with slope c: x where 0 ≤ x, c · x elsewhere. -/
def leaky (c x : EReal) : EReal := Scalar.select (Ideal.cmp .oge x 0) x (c * x)

/-- The activation of the score. -/
def act (c : EReal) (x : (⟨2, ![N, D]⟩ : Shape).Idx → EReal) (i n : Fin N) : EReal := leaky c (score x i n)

/-- The largest activation of row i (−∞ for an empty row). -/
def rowMax (c : EReal) (x : (⟨2, ![N, D]⟩ : Shape).Idx → EReal) (i : Fin N) : EReal :=
  (Finset.univ : Finset (Fin N)).fold max ⊥ (fun n => act c x i n)

/-- The weight of row n for row i, before normalisation. -/
def weight (c : EReal) (x : (⟨2, ![N, D]⟩ : Shape).Idx → EReal) (i n : Fin N) : EReal :=
  Ideal.exp (act c x i n - rowMax c x i)

/-- The sum of row i's weights. -/
def total (c : EReal) (x : (⟨2, ![N, D]⟩ : Shape).Idx → EReal) (i : Fin N) : EReal := ∑ n : Fin N, weight c x i n

/-- Entry (i, d) of the weighted sum of the rows, divided by the total afterwards. -/
def mixThenNormAt (c : EReal) (x : (⟨2, ![N, D]⟩ : Shape).Idx → EReal) (i : Fin N) (d : Fin D) : EReal :=
  Ideal.div (∑ n : Fin N, weight c x i n * x (ix2 n d)) (total c x i)

/-- Entry (i, d) of the sum of the rows under the normalised weights. -/
def normThenMixAt (c : EReal) (x : (⟨2, ![N, D]⟩ : Shape).Idx → EReal) (i : Fin N) (d : Fin D) : EReal :=
  ∑ n : Fin N, Ideal.div (weight c x i n) (total c x i) * x (ix2 n d)

/-- Mix, then normalise, as an [N, D] array. -/
def mixThenNorm (c : EReal) (x : (⟨2, ![N, D]⟩ : Shape).Idx → EReal) : (⟨2, ![N, D]⟩ : Shape).Idx → EReal :=
  fun j => mixThenNormAt c x (j 0) (j 1)

/-- Normalise, then mix, as an [N, D] array. -/
def normThenMix (c : EReal) (x : (⟨2, ![N, D]⟩ : Shape).Idx → EReal) : (⟨2, ![N, D]⟩ : Shape).Idx → EReal :=
  fun j => normThenMixAt c x (j 0) (j 1)

theorem mixThenNorm_ix2 (c : EReal) (x : (⟨2, ![N, D]⟩ : Shape).Idx → EReal) (i : Fin N) (d : Fin D) :
    mixThenNorm c x (ix2 i d) = mixThenNormAt c x i d := rfl

theorem normThenMix_ix2 (c : EReal) (x : (⟨2, ![N, D]⟩ : Shape).Idx → EReal) (i : Fin N) (d : Fin D) :
    normThenMix c x (ix2 i d) = normThenMixAt c x i d := rfl

/-! ## Finiteness -/

theorem isReal_leaky {c x : EReal} (hc : IsReal c) (hx : IsReal x) : IsReal (leaky c x) := by
  unfold leaky Scalar.select
  split
  · exact hx
  · exact isReal_mul hc hx

section Real

variable (c : EReal) (x : (⟨2, ![N, D]⟩ : Shape).Idx → EReal) (hc : IsReal c) (hx : ∀ j, IsReal (x j))
include hc hx

theorem isReal_score (i n : Fin N) : IsReal (score x i n) :=
  isReal_sum _ _ fun q => isReal_mul (hx _) (hx _)

theorem isReal_act (i n : Fin N) : IsReal (act c x i n) := isReal_leaky hc (isReal_score c x hc hx i n)

theorem isReal_rowMax (i : Fin N) : IsReal (rowMax c x i) := by
  rcases isReal_foldMax (Finset.univ : Finset (Fin N)) (fun n => act c x i n) (fun n => isReal_act c x hc hx i n) with ⟨-, h⟩ | h
  · exact absurd (Finset.mem_univ i) (by rw [h]; exact Finset.notMem_empty i)
  · exact h

/-- Every weight is the coercion of a positive real. -/
theorem weight_pos (i n : Fin N) : ∃ r : ℝ, 0 < r ∧ weight c x i n = (r : EReal) := by
  obtain ⟨r, hr⟩ := isReal_sub (isReal_act c x hc hx i n) (isReal_rowMax c x hc hx i)
  exact ⟨Real.exp r, Real.exp_pos r, by unfold weight; rw [hr]; rfl⟩

/-- The total is the coercion of a positive real. -/
theorem total_pos (i : Fin N) : ∃ r : ℝ, 0 < r ∧ total c x i = (r : EReal) := by
  choose w hw0 hw using fun n => weight_pos c x hc hx i n
  haveI : Nonempty (Fin N) := ⟨i⟩
  refine ⟨∑ n : Fin N, w n, Finset.sum_pos (fun n _ => hw0 n) Finset.univ_nonempty, ?_⟩
  unfold total
  rw [coe_sum]
  exact Finset.sum_congr rfl fun n _ => hw n

/-- The two arrangements agree when the slope and every entry are reals. -/
theorem normThenMix_eq_mixThenNorm : normThenMix c x = mixThenNorm c x := by
  funext j
  show normThenMixAt c x (j 0) (j 1) = mixThenNormAt c x (j 0) (j 1)
  generalize j 0 = i
  generalize j 1 = d
  unfold normThenMixAt mixThenNormAt
  obtain ⟨l, hl0, hl⟩ := total_pos c x hc hx i
  choose w _ hw using fun n => weight_pos c x hc hx i n
  choose v hv using fun n : Fin N => hx (ix2 n d)
  rw [hl]
  simp only [Ideal.div_coe (ne_of_gt hl0), hw, hv, ← EReal.coe_mul, ← coe_sum]
  refine congrArg _ ?_
  rw [Finset.sum_mul]
  exact Finset.sum_congr rfl fun n _ => by ring

end Real

end Cert.Attn

end
-- ==== Proof.LibRealOps.lean ====
/-
  General lemmas: extended reals that are real numbers, under the float operations at the ideal values.

  On the extended reals division, square root, rounding and the exponential have corners at the infinities, at zero
  and below zero. Away from them they are the coercions of the real operations: a quotient by a positive (or nonzero)
  real, the square root of a nonnegative real, the rounding of a real to an integer, the exponential of a real (a
  positive real); a sum of squares of reals is nonnegative. Five float words as the extended reals they denote:
  0x2B8CBCCC = 9223372 · 2⁻⁶³ (positive), 0x3D4CCCCD = 13421773 · 2⁻²⁸ (nonzero), 0x3F800000 = 1, 0xFF800000 = −∞.
  And the shift-invariance of a softmax-weighted mean over the reals: weights E with a positive total, each scaled by
  one positive factor, give the same mean whether one normalises the unscaled weights and mixes, or mixes the scaled
  weights and divides by their total.
  Nothing here mentions a program. It builds on the real-number predicate and its closure under +, ·, −, max and
  finite sums of the self-attention lemma file, which it imports.
-/
import Idealize.ShloMosaic.PureOps.Ideal.Laws
import proofs.«127795_j83519934038568_2_alg».proof.Proof.LibSelfAttention

noncomputable section

namespace Cert.LibRealOps

open Idealize.ShloMosaic Cert.LibMatChain Cert.Attn

/-- The exponential of a real is the real exponential. -/
theorem exp_coe (r : ℝ) : Ideal.exp (r : EReal) = ((Real.exp r : ℝ) : EReal) := rfl

/-- Rounding a real by an integer-valued rule gives that integer, as a real. -/
theorem liftRound_coe (f : ℝ → ℤ) (r : ℝ) : Ideal.liftRound f (r : EReal) = (((f r : ℤ) : ℝ) : EReal) := rfl

/-- The square root of a nonnegative real is the real square root. -/
theorem sqrt_coe {r : ℝ} (h : 0 ≤ r) : Ideal.sqrt (r : EReal) = ((Real.sqrt r : ℝ) : EReal) := by
  show (if r < 0 then (⊥ : EReal) else ((Real.sqrt r : ℝ) : EReal)) = _
  rw [if_neg (not_lt.mpr h)]

theorem isReal_exp {x : EReal} (hx : IsReal x) : ∃ r : ℝ, 0 < r ∧ Ideal.exp x = (r : EReal) := by
  obtain ⟨a, rfl⟩ := hx
  exact ⟨Real.exp a, Real.exp_pos a, exp_coe a⟩

theorem isReal_liftRound (f : ℝ → ℤ) {x : EReal} (hx : IsReal x) : IsReal (Ideal.liftRound f x) := by
  obtain ⟨a, rfl⟩ := hx
  exact ⟨((f a : ℤ) : ℝ), liftRound_coe f a⟩

/-- A real divided by a positive real is a real. -/
theorem isReal_div {x y : EReal} (hx : IsReal x) (hy : IsReal y) (hpos : 0 < y) : IsReal (Ideal.div x y) := by
  obtain ⟨b, rfl⟩ := hy
  have hb : b ≠ 0 := ne_of_gt (EReal.coe_pos.mp hpos)
  rw [Ideal.div_coe hb]
  exact isReal_mul hx (isReal_coe _)

/-- A real divided by a nonzero real is a real. -/
theorem isReal_div_ne {x : EReal} (hx : IsReal x) {b : ℝ} (hb : b ≠ 0) : IsReal (Ideal.div x (b : EReal)) := by
  rw [Ideal.div_coe hb]
  exact isReal_mul hx (isReal_coe _)

/-- The square root of a nonnegative real is a nonnegative real. -/
theorem isReal_sqrt {x : EReal} (hx : IsReal x) (h0 : 0 ≤ x) : IsReal (Ideal.sqrt x) := by
  obtain ⟨a, rfl⟩ := hx
  rw [sqrt_coe (EReal.coe_nonneg.mp h0)]
  exact isReal_coe _

/-- A sum of squares of reals is nonnegative. -/
theorem sum_sq_nonneg {ι : Type*} (s : Finset ι) (f : ι → EReal) (hf : ∀ i, IsReal (f i)) : 0 ≤ ∑ i ∈ s, f i * f i := by
  refine Finset.sum_nonneg fun i _ => ?_
  obtain ⟨a, ha⟩ := hf i
  rw [ha, ← EReal.coe_mul]
  exact EReal.coe_nonneg.mpr (mul_self_nonneg a)

/-! ## The three float words -/

/-- The normalisation floor, the word 0x2B8CBCCC, is 9223372 · 2⁻⁶³. -/
theorem ofBits_floor : Ideal.ofBits .f32 0x2B8CBCCC#32 = ((9223372 * (2 : ℝ) ^ (-63 : ℤ) : ℝ) : EReal) := by
  simp [Ideal.ofBits, Ideal.ieee, -EReal.coe_mul]

/-- The bin width, the word 0x3D4CCCCD, is 13421773 · 2⁻²⁸. -/
theorem ofBits_bin : Ideal.ofBits .f32 0x3D4CCCCD#32 = ((13421773 * (2 : ℝ) ^ (-28 : ℤ) : ℝ) : EReal) := by
  simp [Ideal.ofBits, Ideal.ieee, -EReal.coe_mul]

/-- The word 0x3F800000 is one. -/
theorem ofBits_one : Ideal.ofBits .f32 0x3F800000#32 = ((1 : ℝ) : EReal) := by
  simp [Ideal.ofBits, Ideal.ieee, -EReal.coe_mul]; norm_num

/-- The word 0xFF800000 is −∞. -/
theorem ofBits_negInf : Ideal.ofBits .f32 0xFF800000#32 = (⊥ : EReal) := by
  simp [Ideal.ofBits, Ideal.ieee]

theorem floor_pos : (0 : ℝ) < 9223372 * (2 : ℝ) ^ (-63 : ℤ) := by positivity

theorem bin_ne : (13421773 * (2 : ℝ) ^ (-28 : ℤ) : ℝ) ≠ 0 := by positivity

/-! ## A softmax-weighted mean does not depend on the shift -/

/-- Over the reals: weights E with a positive total, each scaled by one positive factor κ, give the same normalised
    mean whether one normalises the unscaled weights first or mixes the scaled ones and divides at the end. -/
theorem real_softmax_shift {ι : Type*} [Fintype ι] (E ν : ι → ℝ) (κ : ℝ) (hκ : 0 < κ) (hS : 0 < ∑ w, E w) :
    ∑ w, E w * (1 / ∑ w', E w') * ν w = (∑ w, E w * κ * ν w) * (1 / ∑ w, E w * κ) := by
  have h1 : ∑ w, E w * κ * ν w = κ * ∑ w, E w * ν w := by
    rw [Finset.mul_sum]; exact Finset.sum_congr rfl fun w _ => by ring
  have h2 : ∑ w, E w * κ = κ * ∑ w, E w := by
    rw [Finset.mul_sum]; exact Finset.sum_congr rfl fun w _ => by ring
  have h3 : ∑ w, E w * (1 / ∑ w', E w') * ν w = (∑ w, E w * ν w) * (1 / ∑ w', E w') := by
    rw [Finset.sum_mul]; exact Finset.sum_congr rfl fun w _ => by ring
  rw [h1, h2, h3]
  have hS' : (∑ w, E w) ≠ 0 := ne_of_gt hS
  have hκ' : κ ≠ 0 := ne_of_gt hκ
  field_simp

end Cert.LibRealOps

end
-- ==== Proof.Spec.lean ====
/-
  What both programs compute, as functions of the two normalised arrays and the values.

  For normalised queries xn [16384, 1024], normalised anchors an [4096, 1024] and values v [4096, 2048]:
  the similarity of query p and anchor w is the inner product of row p of xn with row w of an; it is rounded to the
  nearest multiple of the bin width (ties to even). Then two arrangements of a softmax-weighted mean of the values:

  * shifted by one, mixed, then normalised (the blocked accumulation's closed form):
      (Σ_w exp (binned p w − 1) · v (w, h)) / Σ_w exp (binned p w − 1);
  * shifted by the row's maximum, normalised, then mixed (the plain softmax):
      Σ_w (exp (q p w − M p) / (0 + Σ_w' exp (q p w' − M p))) · v (w, h),
    with q p w = sim + (binned − sim), the straight-through form, and M p = max (−∞, the row's maximum of q).
-/
import Idealize.ShloMosaic.Lib.ValueIdx
import Idealize.ShloMosaic.PureOps.Ideal.Laws
import proofs.«127795_j83519934038568_2_alg».proof.Proof.LibRealOps

noncomputable section

namespace Cert.RelAttn

open Idealize.ShloMosaic Idealize.ShloMosaic.ValueIdx

/-- The four array shapes: queries, anchors, values, result. -/
abbrev SQ : Shape := ⟨2, ![16384, 1024]⟩
abbrev SA : Shape := ⟨2, ![4096, 1024]⟩
abbrev SV : Shape := ⟨2, ![4096, 2048]⟩
abbrev SO : Shape := ⟨2, ![16384, 2048]⟩

/-- The bin width and the fixed shift, as the words the programs spell. -/
def bin : EReal := Ideal.ofBits .f32 0x3D4CCCCD#32
def shift : EReal := Ideal.ofBits .f32 0x3F800000#32

/-- The similarity of query row p and anchor row w. -/
def sim (xn : SQ.Idx → EReal) (an : SA.Idx → EReal) (p : Fin 16384) (w : Fin 4096) : EReal :=
  ∑ q : Fin 1024, xn (ix2 p q) * an (ix2 w q)

/-- The similarity rounded to the nearest multiple of the bin width, ties to even. -/
def binned (xn : SQ.Idx → EReal) (an : SA.Idx → EReal) (p : Fin 16384) (w : Fin 4096) : EReal :=
  Ideal.liftRound Ideal.roundHalfEven (Ideal.div (sim xn an p w) bin) * bin

/-! ## Shifted by one, mixed, then normalised -/

/-- The weight of anchor w for query p under the fixed shift. -/
def wgt (xn : SQ.Idx → EReal) (an : SA.Idx → EReal) (p : Fin 16384) (w : Fin 4096) : EReal :=
  Ideal.exp (binned xn an p w - shift)

def mixAt (xn : SQ.Idx → EReal) (an : SA.Idx → EReal) (v : SV.Idx → EReal) (p : Fin 16384) (h : Fin 2048) : EReal :=
  Ideal.div (∑ w : Fin 4096, wgt xn an p w * v (ix2 w h)) (∑ w : Fin 4096, wgt xn an p w)

def mix (xn : SQ.Idx → EReal) (an : SA.Idx → EReal) (v : SV.Idx → EReal) : SO.Idx → EReal :=
  fun i => mixAt xn an v (i 0) (i 1)

theorem mix_ix2 (xn : SQ.Idx → EReal) (an : SA.Idx → EReal) (v : SV.Idx → EReal) (p : Fin 16384) (h : Fin 2048) :
    mix xn an v (ix2 p h) = mixAt xn an v p h := rfl

/-! ## Shifted by the row maximum, normalised, then mixed -/

/-- The straight-through form of the binned similarity: sim + (binned − sim). -/
def quant (xn : SQ.Idx → EReal) (an : SA.Idx → EReal) (p : Fin 16384) (w : Fin 4096) : EReal :=
  sim xn an p w + (binned xn an p w - sim xn an p w)

/-- The row maximum the softmax subtracts: max (−∞, the fold of max from −∞ over the row). -/
def rowMax (xn : SQ.Idx → EReal) (an : SA.Idx → EReal) (p : Fin 16384) : EReal :=
  max ⊥ ((Finset.univ : Finset (Fin 4096)).fold max ⊥ (fun w => quant xn an p w))

def refWgt (xn : SQ.Idx → EReal) (an : SA.Idx → EReal) (p : Fin 16384) (w : Fin 4096) : EReal :=
  Ideal.exp (quant xn an p w - rowMax xn an p)

def refAt (xn : SQ.Idx → EReal) (an : SA.Idx → EReal) (v : SV.Idx → EReal) (p : Fin 16384) (h : Fin 2048) : EReal :=
  ∑ w : Fin 4096, Ideal.div (refWgt xn an p w) (0 + ∑ w' : Fin 4096, refWgt xn an p w') * v (ix2 w h)

def refMix (xn : SQ.Idx → EReal) (an : SA.Idx → EReal) (v : SV.Idx → EReal) : SO.Idx → EReal :=
  fun i => refAt xn an v (i 0) (i 1)

theorem refMix_ix2 (xn : SQ.Idx → EReal) (an : SA.Idx → EReal) (v : SV.Idx → EReal) (p : Fin 16384) (h : Fin 2048) :
    refMix xn an v (ix2 p h) = refAt xn an v p h := rfl

end Cert.RelAttn

end
-- ==== Proof.SoftmaxLaw.lean ====
/-
  The two arrangements of the softmax-weighted mean agree on real arrays.

  With real entries every similarity, binned similarity, row maximum and weight is a real, and every weight is
  positive. Over the reals, writing E w = exp (b w − M) and κ = exp (M − 1) > 0,
    exp (b w − 1) = E w · κ,
  so the factor κ leaves both the mixed sum and the total, and
    (Σ_w E w κ v w) / (Σ_w E w κ) = (Σ_w E w v w) / Σ_w E w = Σ_w (E w / Σ E) v w:
  a softmax does not depend on the shift, and a positive total passes through the finite sum.
-/
import proofs.«127795_j83519934038568_2_alg».proof.Proof.Spec

noncomputable section

namespace Cert.RelAttn

open Idealize.ShloMosaic Idealize.ShloMosaic.ValueIdx Cert.LibMatChain Cert.Attn Cert.LibRealOps

variable (xn : SQ.Idx → EReal) (an : SA.Idx → EReal) (v : SV.Idx → EReal)

theorem isReal_sim (hxn : ∀ i, IsReal (xn i)) (han : ∀ i, IsReal (an i)) (p : Fin 16384) (w : Fin 4096) :
    IsReal (sim xn an p w) :=
  isReal_sum _ _ fun _ => isReal_mul (hxn _) (han _)

theorem isReal_binned (hxn : ∀ i, IsReal (xn i)) (han : ∀ i, IsReal (an i)) (p : Fin 16384) (w : Fin 4096) :
    IsReal (binned xn an p w) := by
  unfold binned bin
  rw [ofBits_bin]
  exact isReal_mul (isReal_liftRound _ (isReal_div_ne (isReal_sim xn an hxn han p w) bin_ne)) (isReal_coe _)

/-- On real arrays the plain softmax of the straight-through similarities, normalised then mixed, is the mean under
    the weights shifted by one, mixed then normalised. -/
theorem refAt_eq_mixAt (hxn : ∀ i, IsReal (xn i)) (han : ∀ i, IsReal (an i)) (hv : ∀ i, IsReal (v i))
    (p : Fin 16384) (h : Fin 2048) : refAt xn an v p h = mixAt xn an v p h := by
  choose σ hσ using fun w => isReal_sim xn an hxn han p w
  choose β hβ using fun w => isReal_binned xn an hxn han p w
  choose ν hν using fun w : Fin 4096 => hv (ix2 w h)
  have hq : ∀ w, quant xn an p w = ((β w : ℝ) : EReal) := fun w => by
    unfold quant
    rw [hσ w, hβ w, ← EReal.coe_sub, ← EReal.coe_add]
    exact congrArg _ (by ring)
  have hM : IsReal (rowMax xn an p) := by
    unfold rowMax
    rw [max_bot_left]
    rcases isReal_foldMax (Finset.univ : Finset (Fin 4096)) (fun w => quant xn an p w) (fun w => ⟨β w, hq w⟩) with ⟨-, h0⟩ | h'
    · exact absurd (Finset.mem_univ (0 : Fin 4096)) (by rw [h0]; exact Finset.notMem_empty _)
    · exact h'
  obtain ⟨μ, hμ⟩ := hM
  have hrw : ∀ w, refWgt xn an p w = ((Real.exp (β w - μ) : ℝ) : EReal) := fun w => by
    unfold refWgt
    rw [hq w, hμ, ← EReal.coe_sub, exp_coe]
  have hkw : ∀ w, wgt xn an p w = ((Real.exp (β w - 1) : ℝ) : EReal) := fun w => by
    unfold wgt shift
    rw [hβ w, ofBits_one, ← EReal.coe_sub, exp_coe]
  have hS : (0 : ℝ) < ∑ w : Fin 4096, Real.exp (β w - μ) :=
    Finset.sum_pos (fun w _ => Real.exp_pos _) Finset.univ_nonempty
  have hS' : (0 : ℝ) < ∑ w : Fin 4096, Real.exp (β w - 1) :=
    Finset.sum_pos (fun w _ => Real.exp_pos _) Finset.univ_nonempty
  unfold refAt mixAt
  simp only [hrw, hkw, hν, zero_add, ← coe_sum, Ideal.div_coe (ne_of_gt hS), Ideal.div_coe (ne_of_gt hS'), ← EReal.coe_mul]
  refine congrArg _ ?_
  have hfac : ∀ w, Real.exp (β w - 1) = Real.exp (β w - μ) * Real.exp (μ - 1) := fun w => by
    rw [← Real.exp_add]; exact congrArg _ (by ring)
  simp only [hfac]
  exact real_softmax_shift (fun w => Real.exp (β w - μ)) ν (Real.exp (μ - 1)) (Real.exp_pos _) hS

theorem refMix_eq_mix (hxn : ∀ i, IsReal (xn i)) (han : ∀ i, IsReal (an i)) (hv : ∀ i, IsReal (v i)) :
    refMix xn an v = mix xn an v :=
  funext fun i => refAt_eq_mixAt xn an v hxn han hv (i 0) (i 1)

end Cert.RelAttn

end
-- ==== Proof.KPieces.lean ====
/-
  What one grid point's body leaves behind, as values.

  The body keeps two running quantities between grid points: a column l [1024, 1] (the total of the weights so far)
  and an array acc [1024, 2048] (the weighted sum of the value rows so far). At the first anchor block of a query block
  it first clears both; at every anchor block it adds that block's contribution; at the last anchor block it also
  writes acc / l to the result block. This module reads each stored piece back as the body's arithmetic on the point's
  three input blocks x0 (queries), x1 (anchors), x2 (values) and on what the point before left (xs0, xs1):
  first block:  l = (zeros) updated,  acc = (zeros) updated;
  later blocks: l = xs0 updated,      acc = xs1 updated;
  last block:   additionally  result = (acc updated) / (l updated).
  Every store covers its whole buffer, so a later load of the buffer reads exactly what was stored.
-/
import proofs.«127795_j83519934038568_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.RelAttn.Kernel

open Cert.KernelIdeal Cert.KernelIdeal.Gen

variable {F : FTy → Type} [FloatOps F]

theorem hz : (![0, 0] : Fin 2 → Nat) = fun _ => 0 := funext fun a => by fin_cases a <;> rfl

/-! ## The first anchor block: both running quantities are cleared, then updated -/

theorem left_first_total (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x2048 .bf16) (h4 : a4.IsWhole) (a5 : Memref sig .tc .vmem S1024x2048 .f32) (h5 : a5.IsWhole) (a6 : Memref sig .tc .vmem S1024x1 .f32) (h6 : a6.IsWhole) (a7 : Memref sig .tc .vmem S1024x2048 .f32) (h7 : a7.IsWhole) (hc0 : cond0_0 i) (hc1 : ¬cond0_1 i)
    (x0 : Vec F S1024x1024 .bf16) (x1 : Vec F S1024x1024 .bf16) (x2 : Vec F S1024x2048 .bf16) :
    sout0_A_0 c i a2 h2 a3 h3 a4 h4 a5 h5 a6 h6 a7 h7 hc0 hc1 x0 x1 x2 = k0_pay5 x0 x1 (k0_pay2 (F := F)) := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h6.read_unread, h7.read_unread,
    View.ld_unit_zero (S := S1024x1024) hz, View.ld_unit_zero (S := S1024x1) hz, View.ld_unit_zero (S := S1024x2048) hz]

theorem left_first_acc (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x2048 .bf16) (h4 : a4.IsWhole) (a5 : Memref sig .tc .vmem S1024x2048 .f32) (h5 : a5.IsWhole) (a6 : Memref sig .tc .vmem S1024x1 .f32) (h6 : a6.IsWhole) (a7 : Memref sig .tc .vmem S1024x2048 .f32) (h7 : a7.IsWhole) (hc0 : cond0_0 i) (hc1 : ¬cond0_1 i)
    (x0 : Vec F S1024x1024 .bf16) (x1 : Vec F S1024x1024 .bf16) (x2 : Vec F S1024x2048 .bf16) :
    sout0_A_1 c i a2 h2 a3 h3 a4 h4 a5 h5 a6 h6 a7 h7 hc0 hc1 x0 x1 x2 = k0_pay6 x0 x1 (k0_pay3 (F := F)) x2 := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h2.read_unread, h3.read_unread, h4.read_unread, h6.read_unread, h7.read_unread,
    View.ld_unit_zero (S := S1024x1024) hz, View.ld_unit_zero (S := S1024x1) hz, View.ld_unit_zero (S := S1024x2048) hz]

/-! ## A middle anchor block: both are updated over what the point before left -/

theorem left_mid_total (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x2048 .bf16) (h4 : a4.IsWhole) (a5 : Memref sig .tc .vmem S1024x2048 .f32) (h5 : a5.IsWhole) (a6 : Memref sig .tc .vmem S1024x1 .f32) (h6 : a6.IsWhole) (a7 : Memref sig .tc .vmem S1024x2048 .f32) (h7 : a7.IsWhole) (hc0 : ¬cond0_0 i) (hc1 : ¬cond0_1 i)
    (x0 : Vec F S1024x1024 .bf16) (x1 : Vec F S1024x1024 .bf16) (x2 : Vec F S1024x2048 .bf16) (xs0 : Vec F S1024x1 .f32) (xs1 : Vec F S1024x2048 .f32) :
    sout0_B_0 c i a2 h2 a3 h3 a4 h4 a5 h5 a6 h6 a7 h7 hc0 hc1 x0 x1 x2 xs0 xs1 = k0_pay5 x0 x1 xs0 := by
  unfold sout0_B_0
  rw [View.read_writes_eq_canon _ _ _ (scover0_B_0 c i a2 h2 a3 h3 a4 h4 a5 h5 a6 h6 a7 h7 hc0 hc1 x0 x1 x2 xs0 xs1)]
  unfold kernelRun0_B
  dsimp only
  sl_unfold_words
  rw [View.canon_unit_zero hz]
  simp only [View.readAt_eq_ld, h2.read_unread, h3.read_unread, h4.read_unread, h6.read_unread, h7.read_unread,
    View.ld_unit_zero (S := S1024x1024) hz, View.ld_unit_zero (S := S1024x1) hz, View.ld_unit_zero (S := S1024x2048) hz]

theorem left_mid_acc (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x2048 .bf16) (h4 : a4.IsWhole) (a5 : Memref sig .tc .vmem S1024x2048 .f32) (h5 : a5.IsWhole) (a6 : Memref sig .tc .vmem S1024x1 .f32) (h6 : a6.IsWhole) (a7 : Memref sig .tc .vmem S1024x2048 .f32) (h7 : a7.IsWhole) (hc0 : ¬cond0_0 i) (hc1 : ¬cond0_1 i)
    (x0 : Vec F S1024x1024 .bf16) (x1 : Vec F S1024x1024 .bf16) (x2 : Vec F S1024x2048 .bf16) (xs0 : Vec F S1024x1 .f32) (xs1 : Vec F S1024x2048 .f32) :
    sout0_B_1 c i a2 h2 a3 h3 a4 h4 a5 h5 a6 h6 a7 h7 hc0 hc1 x0 x1 x2 xs0 xs1 = k0_pay6 x0 x1 xs1 x2 := by
  unfold sout0_B_1
  rw [View.read_writes_eq_canon _ _ _ (scover0_B_1 c i a2 h2 a3 h3 a4 h4 a5 h5 a6 h6 a7 h7 hc0 hc1 x0 x1 x2 xs0 xs1)]
  unfold kernelRun0_B
  dsimp only
  sl_unfold_words
  rw [View.canon_unit_zero hz]
  simp only [View.readAt_eq_ld, h2.read_unread, h3.read_unread, h4.read_unread, h6.read_unread, h7.read_unread,
    View.ld_unit_zero (S := S1024x1024) hz, View.ld_unit_zero (S := S1024x1) hz, View.ld_unit_zero (S := S1024x2048) hz]

/-! ## The last anchor block: both are updated, and their quotient is written to the result block -/

theorem left_last_total (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x2048 .bf16) (h4 : a4.IsWhole) (a5 : Memref sig .tc .vmem S1024x2048 .f32) (h5 : a5.IsWhole) (a6 : Memref sig .tc .vmem S1024x1 .f32) (h6 : a6.IsWhole) (a7 : Memref sig .tc .vmem S1024x2048 .f32) (h7 : a7.IsWhole) (hc0 : ¬cond0_0 i) (hc1 : cond0_1 i)
    (x0 : Vec F S1024x1024 .bf16) (x1 : Vec F S1024x1024 .bf16) (x2 : Vec F S1024x2048 .bf16) (xs0 : Vec F S1024x1 .f32) (xs1 : Vec F S1024x2048 .f32) :
    sout0_C_0 c i a2 h2 a3 h3 a4 h4 a5 h5 a6 h6 a7 h7 hc0 hc1 x0 x1 x2 xs0 xs1 = k0_pay5 x0 x1 xs0 := by
  unfold sout0_C_0
  rw [View.read_writes_eq_canon _ _ _ (scover0_C_0 c i a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h2.read_unread, h3.read_unread, h4.read_unread, h6.read_unread, h7.read_unread,
    View.ld_unit_zero (S := S1024x1024) hz, View.ld_unit_zero (S := S1024x1) hz, View.ld_unit_zero (S := S1024x2048) hz]

theorem left_last_acc (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x2048 .bf16) (h4 : a4.IsWhole) (a5 : Memref sig .tc .vmem S1024x2048 .f32) (h5 : a5.IsWhole) (a6 : Memref sig .tc .vmem S1024x1 .f32) (h6 : a6.IsWhole) (a7 : Memref sig .tc .vmem S1024x2048 .f32) (h7 : a7.IsWhole) (hc0 : ¬cond0_0 i) (hc1 : cond0_1 i)
    (x0 : Vec F S1024x1024 .bf16) (x1 : Vec F S1024x1024 .bf16) (x2 : Vec F S1024x2048 .bf16) (xs0 : Vec F S1024x1 .f32) (xs1 : Vec F S1024x2048 .f32) :
    sout0_C_1 c i a2 h2 a3 h3 a4 h4 a5 h5 a6 h6 a7 h7 hc0 hc1 x0 x1 x2 xs0 xs1 = k0_pay6 x0 x1 xs1 x2 := by
  unfold sout0_C_1
  rw [View.read_writes_eq_canon _ _ _ (scover0_C_1 c i a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h2.read_unread, h3.read_unread, h4.read_unread, h6.read_unread, h7.read_unread,
    View.ld_unit_zero (S := S1024x1024) hz, View.ld_unit_zero (S := S1024x1) hz, View.ld_unit_zero (S := S1024x2048) hz]

theorem left_last_result (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x2048 .bf16) (h4 : a4.IsWhole) (a5 : Memref sig .tc .vmem S1024x2048 .f32) (h5 : a5.IsWhole) (a6 : Memref sig .tc .vmem S1024x1 .f32) (h6 : a6.IsWhole) (a7 : Memref sig .tc .vmem S1024x2048 .f32) (h7 : a7.IsWhole) (hc0 : ¬cond0_0 i) (hc1 : cond0_1 i)
    (x0 : Vec F S1024x1024 .bf16) (x1 : Vec F S1024x1024 .bf16) (x2 : Vec F S1024x2048 .bf16) (xs0 : Vec F S1024x1 .f32) (xs1 : Vec F S1024x2048 .f32) :
    out0_C_3 c i a2 h2 a3 h3 a4 h4 a5 h5 a6 h6 a7 h7 hc0 hc1 x0 x1 x2 xs0 xs1 = k0_pay1 (k0_pay6 x0 x1 xs1 x2) (k0_pay5 x0 x1 xs0) := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.canon_unit_zero hz, View.readCov_unit_zero (S := S1024x2048) _ hz, View.readCov_unit_zero (S := S1024x1) _ hz]
  simp only [View.readAt_eq_ld, h2.read_unread, h3.read_unread, h4.read_unread, h6.read_unread, h7.read_unread,
    View.ld_unit_zero (S := S1024x1024) hz, View.ld_unit_zero (S := S1024x1) hz, View.ld_unit_zero (S := S1024x2048) hz]

/-! ## The same seven facts as equations between functions of the point's data

Stated this way they rewrite the case's term wherever it stands, whatever blocks it is applied to. -/

theorem left_first_total_fn :
    @sout0_A_0 F _ = fun c i a2 h2 a3 h3 a4 h4 a5 h5 a6 h6 a7 h7 hc0 hc1 x0 x1 x2 => k0_pay5 x0 x1 (k0_pay2 (F := F)) := by
  funext c i a2 h2 a3 h3 a4 h4 a5 h5 a6 h6 a7 h7 hc0 hc1 x0 x1 x2
  exact left_first_total c i a2 h2 a3 h3 a4 h4 a5 h5 a6 h6 a7 h7 hc0 hc1 x0 x1 x2

theorem left_first_acc_fn :
    @sout0_A_1 F _ = fun c i a2 h2 a3 h3 a4 h4 a5 h5 a6 h6 a7 h7 hc0 hc1 x0 x1 x2 => k0_pay6 x0 x1 (k0_pay3 (F := F)) x2 := by
  funext c i a2 h2 a3 h3 a4 h4 a5 h5 a6 h6 a7 h7 hc0 hc1 x0 x1 x2
  exact left_first_acc c i a2 h2 a3 h3 a4 h4 a5 h5 a6 h6 a7 h7 hc0 hc1 x0 x1 x2

theorem left_mid_total_fn :
    @sout0_B_0 F _ = fun c i a2 h2 a3 h3 a4 h4 a5 h5 a6 h6 a7 h7 hc0 hc1 x0 x1 x2 xs0 xs1 => k0_pay5 x0 x1 xs0 := by
  funext c i a2 h2 a3 h3 a4 h4 a5 h5 a6 h6 a7 h7 hc0 hc1 x0 x1 x2 xs0 xs1
  exact left_mid_total c i a2 h2 a3 h3 a4 h4 a5 h5 a6 h6 a7 h7 hc0 hc1 x0 x1 x2 xs0 xs1

theorem left_mid_acc_fn :
    @sout0_B_1 F _ = fun c i a2 h2 a3 h3 a4 h4 a5 h5 a6 h6 a7 h7 hc0 hc1 x0 x1 x2 xs0 xs1 => k0_pay6 x0 x1 xs1 x2 := by
  funext c i a2 h2 a3 h3 a4 h4 a5 h5 a6 h6 a7 h7 hc0 hc1 x0 x1 x2 xs0 xs1
  exact left_mid_acc c i a2 h2 a3 h3 a4 h4 a5 h5 a6 h6 a7 h7 hc0 hc1 x0 x1 x2 xs0 xs1

theorem left_last_total_fn :
    @sout0_C_0 F _ = fun c i a2 h2 a3 h3 a4 h4 a5 h5 a6 h6 a7 h7 hc0 hc1 x0 x1 x2 xs0 xs1 => k0_pay5 x0 x1 xs0 := by
  funext c i a2 h2 a3 h3 a4 h4 a5 h5 a6 h6 a7 h7 hc0 hc1 x0 x1 x2 xs0 xs1
  exact left_last_total c i a2 h2 a3 h3 a4 h4 a5 h5 a6 h6 a7 h7 hc0 hc1 x0 x1 x2 xs0 xs1

theorem left_last_acc_fn :
    @sout0_C_1 F _ = fun c i a2 h2 a3 h3 a4 h4 a5 h5 a6 h6 a7 h7 hc0 hc1 x0 x1 x2 xs0 xs1 => k0_pay6 x0 x1 xs1 x2 := by
  funext c i a2 h2 a3 h3 a4 h4 a5 h5 a6 h6 a7 h7 hc0 hc1 x0 x1 x2 xs0 xs1
  exact left_last_acc c i a2 h2 a3 h3 a4 h4 a5 h5 a6 h6 a7 h7 hc0 hc1 x0 x1 x2 xs0 xs1

theorem left_last_result_fn :
    @out0_C_3 F _ = fun c i a2 h2 a3 h3 a4 h4 a5 h5 a6 h6 a7 h7 hc0 hc1 x0 x1 x2 xs0 xs1 => k0_pay1 (k0_pay6 x0 x1 xs1 x2) (k0_pay5 x0 x1 xs0) := by
  funext c i a2 h2 a3 h3 a4 h4 a5 h5 a6 h6 a7 h7 hc0 hc1 x0 x1 x2 xs0 xs1
  exact left_last_result c i a2 h2 a3 h3 a4 h4 a5 h5 a6 h6 a7 h7 hc0 hc1 x0 x1 x2 xs0 xs1

end Cert.RelAttn.Kernel

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.KPay.lean ====
/-
  The body's arithmetic, read at an index, at the ideal values.

  For one grid point with query block x0 [1024, 1024], anchor block x1 [1024, 1024], value block x2 [1024, 2048]:
  * the weight of anchor row j for query row r is  exp (round (⟨x0 r, x1 j⟩ / bin) · bin − 1)  (the product with the
    transposed anchor block is the inner product of the two rows; the format changes are the identity);
  * the total column gains the sum of the row's 1024 weights;
  * the accumulator gains, at (r, h), the sum over j of weight r j · x2 (j, h);
  * the result block is the accumulator divided by the total column, row by row;
  * the cleared buffers hold zero.
-/
import proofs.«127795_j83519934038568_2_alg».proof.Proof.Gen.KernelIdeal.Skeleton
import proofs.«127795_j83519934038568_2_alg».proof.Proof.LibDenseOps
import proofs.«127795_j83519934038568_2_alg».proof.Proof.Spec
import Idealize.ShloMosaic.Lib.Pipeline.Value
import Idealize.ShloMosaic.Lib.ValueLayout
import Idealize.ShloMosaic.Lib.ValueIdx

noncomputable section

open Idealize.ShloMosaic Idealize.ShloMosaic.ValueIdx

namespace Cert.RelAttn.Kernel

open Cert.KernelIdeal Cert.KernelIdeal.Gen

/-! ## The two products' dimension records: rows of the left factor against rows of the right one's first axis -/

theorem simDims_l0 (i : (⟨2, ![1024, 1024]⟩ : Shape).Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem simDims_l1 (i : (⟨2, ![1024, 1024]⟩ : Shape).Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem simDims_r0 (i : (⟨2, ![1024, 1024]⟩ : Shape).Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem simDims_r1 (i : (⟨2, ![1024, 1024]⟩ : Shape).Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem mixDims_l0 (i : (⟨2, ![1024, 2048]⟩ : Shape).Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem mixDims_l1 (i : (⟨2, ![1024, 2048]⟩ : Shape).Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem mixDims_r0 (i : (⟨2, ![1024, 2048]⟩ : Shape).Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem mixDims_r1 (i : (⟨2, ![1024, 2048]⟩ : Shape).Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- The weight of anchor row j of the block x1 for query row r of the block x0. -/
def blockWgt (x0 x1 : S1024x1024.Idx → EReal) (r j : Fin 1024) : EReal :=
  Ideal.exp (Ideal.liftRound Ideal.roundHalfEven (Ideal.div (∑ q : Fin 1024, x0 (ix2 r q) * x1 (ix2 j q)) bin) * bin - shift)

/-- The product of the query block with the transposed anchor block, at (r, j): the inner product of the two rows. -/
theorem scores_apply (x0 x1 : Vec Ideal S1024x1024 .bf16) (r j : Fin 1024) :
    (FloatOps.matmul (F := Ideal) (φ₁ := .bf16) (φ₂ := .bf16) dot_S1024x1024_S1024x1024_S1024x1024_1_0_0_1_n_n none (shapeCast S1024x1024 x0 shapeCasts_S1024x1024_S1024x1024)
        (transpose S1024x1024 [1, 0] (shapeCast S1024x1024 x1 shapeCasts_S1024x1024_S1024x1024) transposes_S1024x1024_p1_0_S1024x1024)
        (constant (F := Ideal) S1024x1024 .f32 0x00000000#32) (ix2 r j) : EReal)
      = ∑ q : Fin 1024, (x0 (ix2 r q) : EReal) * (x1 (ix2 j q) : EReal) := by
  refine (Cert.LibDenseOps.matmul_zero_ix2 (a := 1024) (k := 1024) (b := 1024) dot_S1024x1024_S1024x1024_S1024x1024_1_0_0_1_n_n rfl rfl
    simDims_l0 simDims_l1 simDims_r0 simDims_r1 none _ _ r j).trans ?_
  refine Finset.sum_congr rfl fun q _ => ?_
  rw [shapeCast_self, transpose_ix2_apply, shapeCast_self]

theorem weight_apply (x0 x1 : Vec Ideal S1024x1024 .bf16) (r j : Fin 1024) :
    (k0_pay4 (F := Ideal) x0 x1 (ix2 r j) : EReal) = blockWgt x0 x1 r j :=
  congrArg (fun z : EReal => Ideal.exp (Ideal.liftRound Ideal.roundHalfEven (Ideal.div z bin) * bin - shift)) (scores_apply x0 x1 r j)

/-- The total column after the point: what it held plus the row's weights. -/
theorem total_apply (x0 x1 : Vec Ideal S1024x1024 .bf16) (xs0 : Vec Ideal S1024x1 .f32) (r : Fin 1024) (u : Fin 1) :
    (k0_pay5 (F := Ideal) x0 x1 xs0 (ix2 r u) : EReal) = (xs0 (ix2 r u) : EReal) + ∑ j : Fin 1024, blockWgt x0 x1 r j := by
  unfold k0_pay5
  rw [shapeCast_self]
  refine (addf_apply _ _ _).trans (congrArg (fun z : EReal => (xs0 (ix2 r u) : EReal) + z) ?_)
  refine (Cert.LibDenseOps.shapeCast_a_a1_apply (a := 1024) _ _ r u).trans ?_
  refine (Cert.LibDenseOps.laneSum_apply (a := 1024) (b := 1024) _ _ _ _ _ r).trans ?_
  exact Finset.sum_congr rfl fun j _ => weight_apply x0 x1 r j

/-- The accumulator after the point: what it held plus the weights mixed with the value block's rows. -/
theorem acc_apply (x0 x1 : Vec Ideal S1024x1024 .bf16) (xs1 : Vec Ideal S1024x2048 .f32) (x2 : Vec Ideal S1024x2048 .bf16)
    (r : Fin 1024) (h : Fin 2048) :
    (k0_pay6 (F := Ideal) x0 x1 xs1 x2 (ix2 r h) : EReal) = (xs1 (ix2 r h) : EReal) + ∑ j : Fin 1024, blockWgt x0 x1 r j * (x2 (ix2 j h) : EReal) := by
  unfold k0_pay6
  rw [shapeCast_self]
  refine (addf_apply _ _ _).trans (congrArg (fun z : EReal => (xs1 (ix2 r h) : EReal) + z) ?_)
  refine (Cert.LibDenseOps.matmul_zero_ix2 (a := 1024) (k := 1024) (b := 2048) dot_S1024x1024_S1024x2048_S1024x2048_1_0_0_1_n_n rfl rfl
    mixDims_l0 mixDims_l1 mixDims_r0 mixDims_r1 none _ _ r h).trans ?_
  refine Finset.sum_congr rfl fun j _ => ?_
  rw [shapeCast_self]
  exact congrArg (fun z : EReal => z * (x2 (ix2 j h) : EReal)) (weight_apply x0 x1 r j)

/-- The result block: the accumulator over the total column, row by row. -/
theorem quotient_apply (acc : Vec Ideal S1024x2048 .f32) (l : Vec Ideal S1024x1 .f32) (r : Fin 1024) (h : Fin 2048) :
    (k0_pay1 (F := Ideal) acc l (ix2 r h) : EReal) = Ideal.div (acc (ix2 r h) : EReal) (l (ix2 r (0 : Fin 1)) : EReal) := by
  unfold k0_pay1
  refine (divf_apply _ _ _).trans (congrArg (fun z : EReal => Ideal.div (acc (ix2 r h) : EReal) z) ?_)
  exact Cert.LibDenseOps.broadcastTo_a1_ab_apply (a := 1024) (b := 2048) l _ r h

/-- The cleared total column and the cleared accumulator hold zero. -/
theorem cleared_total_apply (i : S1024x1.Idx) : (k0_pay2 (F := Ideal) i : EReal) = 0 := by
  unfold k0_pay2
  rw [shapeCast_self]
  exact Ideal.ofBits_zero_f32

theorem cleared_acc_apply (i : S1024x2048.Idx) : (k0_pay3 (F := Ideal) i : EReal) = 0 := by
  unfold k0_pay3
  rw [shapeCast_self]
  exact Ideal.ofBits_zero_f32

end Cert.RelAttn.Kernel

end
-- ==== Proof.KBlocks.lean ====
/-
  The blocks a grid point reads, as entries of the whole arrays.

  The grid has 16 query blocks by 4 anchor blocks, visited in row-major order: point t handles query block t / 4 and
  anchor block t mod 4. Its query block is rows 1024·(t / 4) … of the normalised queries, its anchor block rows
  1024·(t mod 4) … of the normalised anchors, its value block the same rows of the values, and it writes rows
  1024·(t / 4) … of the result. The three arrays the region finds are what the operations before it computed: each
  query and anchor row divided by the larger of its Euclidean norm and the floor (the same operations, in the same
  order, as the plain program's normalisation), and the values unchanged; the change of float format is the identity.
-/
import proofs.«127795_j83519934038568_2_alg».proof.Proof.Gen.KernelIdeal.Frame
import proofs.«127795_j83519934038568_2_alg».proof.Proof.Gen.ReferenceIdeal.Read
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.RelAttn.Kernel

open Cert.KernelIdeal Cert.KernelIdeal.Gen

/-- Which block of each array a point touches: decided once over the 64 points. -/
theorem block_index : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0 :=
  (by decide +kernel : ∀ t : Fin grid0.N, _)

/-- The result block is written back exactly at the last anchor block of each query block. -/
theorem flush_iff : ∀ t : Fin cfg0.N, (cfg0.win 3).flush t = true ↔ t.val % 4 = 3 :=
  (by decide +kernel : ∀ t : Fin grid0.N, _)

variable (m : (ℓ : Loc nD τ sig) → Buf (Elt Ideal) ℓ)

/-! ## The arrays the region finds -/

set_option maxRecDepth 200000 in
/-- The normalised queries: the plain program's normalisation of the first argument. -/
theorem queries_eq (c : Dev nD) :
    (V m c main_call0_v8 : S16384x1024.Idx → EReal)
      = Cert.ReferenceIdeal.Read.val_main_v4 (F := Ideal) (m ((c : Thread nD τ).loc main_arg0)) := by
  dsimp only [V, hostOps0]
  after_results
  rfl

/-- The normalised anchors: the plain program's normalisation of the second argument. -/
theorem anchors_eq (c : Dev nD) :
    (V m c main_call0_v17 : S4096x1024.Idx → EReal)
      = Cert.ReferenceIdeal.Read.val_main_v9 (F := Ideal) (m ((c : Thread nD τ).loc main_arg1)) := by
  dsimp only [V, hostOps0]
  after_results
  rfl

/-- The values: the third argument. -/
theorem values_eq (c : Dev nD) :
    (V m c main_call0_v18 : S4096x2048.Idx → EReal) = m ((c : Thread nD τ).loc main_arg2) := by
  dsimp only [V, hostOps0]
  after_results
  rfl

/-! ## A point's blocks -/

theorem query_block (c : Dev nD) (t : Fin cfg0.N) (r q : Fin 1024) (hb : 1024 * (t.val / 4) + r.val < 16384) :
    (iblk m c 0 t : Vec Ideal S1024x1024 .bf16) (ix2 r q)
      = V m c main_call0_v8 (ix2 (⟨1024 * (t.val / 4) + r.val, hb⟩ : Fin 16384) q) := by
  obtain ⟨e0, e1, -⟩ := block_index t
  unfold iblk
  rw [View.read_apply]
  show V m c main_call0_v8 _ = V m c main_call0_v8 _
  congr 1
  funext a
  apply Fin.ext
  match a with
  | ⟨0, _⟩ => show win0_0.index t 0 * 1024 + 1 * r.val = 1024 * (t.val / 4) + r.val; rw [e0]; omega
  | ⟨1, _⟩ => show win0_0.index t 1 * 1024 + 1 * q.val = q.val; rw [e1]; omega

theorem anchor_block (c : Dev nD) (t : Fin cfg0.N) (j q : Fin 1024) (hb : 1024 * (t.val % 4) + j.val < 4096) :
    (iblk m c 1 t : Vec Ideal S1024x1024 .bf16) (ix2 j q)
      = V m c main_call0_v17 (ix2 (⟨1024 * (t.val % 4) + j.val, hb⟩ : Fin 4096) q) := by
  obtain ⟨-, -, e0, e1, -⟩ := block_index t
  unfold iblk
  rw [View.read_apply]
  show V m c main_call0_v17 _ = V m c main_call0_v17 _
  congr 1
  funext a
  apply Fin.ext
  match a with
  | ⟨0, _⟩ => show win0_1.index t 0 * 1024 + 1 * j.val = 1024 * (t.val % 4) + j.val; rw [e0]; omega
  | ⟨1, _⟩ => show win0_1.index t 1 * 1024 + 1 * q.val = q.val; rw [e1]; omega

theorem value_block (c : Dev nD) (t : Fin cfg0.N) (j : Fin 1024) (h : Fin 2048) (hb : 1024 * (t.val % 4) + j.val < 4096) :
    (iblk m c 2 t : Vec Ideal S1024x2048 .bf16) (ix2 j h)
      = V m c main_call0_v18 (ix2 (⟨1024 * (t.val % 4) + j.val, hb⟩ : Fin 4096) h) := by
  obtain ⟨-, -, -, -, e0, e1, -⟩ := block_index t
  unfold iblk
  rw [View.read_apply]
  show V m c main_call0_v18 _ = V m c main_call0_v18 _
  congr 1
  funext a
  apply Fin.ext
  match a with
  | ⟨0, _⟩ => show win0_2.index t 0 * 1024 + 1 * j.val = 1024 * (t.val % 4) + j.val; rw [e0]; omega
  | ⟨1, _⟩ => show win0_2.index t 1 * 2048 + 1 * h.val = h.val; rw [e1]; omega

end Cert.RelAttn.Kernel

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.KAcc.lean ====
/-
  The running total and the running accumulator after each grid point, in closed form.

  Point t handles anchor block k = t mod 4 of query block t / 4. After it, for query row p = 1024·(t / 4) + r:
    the total column holds      Σ_{s ≤ k} Σ_{j < 1024} weight p (1024·s + j),
    the accumulator holds, at h, Σ_{s ≤ k} Σ_{j < 1024} weight p (1024·s + j) · value (1024·s + j, h),
  where weight p w = exp (binned similarity of query p and anchor w − 1). At k = 0 both start from zero; at k > 0
  the point adds block k's share to what the point before left. By induction on the point. After the fourth
  anchor block the four shares are the whole sums over the 4096 anchors (a sum over 4·1024 consecutive indices cut into
  4 consecutive blocks of 1024), and the result block is their quotient.
-/
import proofs.«127795_j83519934038568_2_alg».proof.Proof.KPieces
import proofs.«127795_j83519934038568_2_alg».proof.Proof.KPay
import proofs.«127795_j83519934038568_2_alg».proof.Proof.KBlocks
import proofs.«127795_j83519934038568_2_alg».proof.Proof.LibBlockSum

set_option maxRecDepth 16384

noncomputable section

open Idealize.ShloMosaic Idealize.ShloMosaic.TcCoe Idealize.SL.Sem Idealize.ShloMosaic.ValueIdx
open Idealize.ShloMosaic.Pipeline (Dat)

namespace Cert.RelAttn.Kernel

open Cert.KernelIdeal Cert.KernelIdeal.Gen

variable (m : (ℓ : Loc nD τ sig) → Buf (Elt Ideal) ℓ)

/-! ## What each point leaves, as the body's arithmetic on its blocks and on what the point before left -/

theorem carried_first (c : Dev nD) (t : Fin cfg0.N) (h0 : t.val % 4 = 0) :
    (outsAt0 m c t.val t.isLt).2.1 = k0_pay5 (F := Ideal) (iblk m c 0 t) (iblk m c 1 t) (k0_pay2 (F := Ideal))
    ∧ (outsAt0 m c t.val t.isLt).2.2 = k0_pay6 (F := Ideal) (iblk m c 0 t) (iblk m c 1 t) (k0_pay3 (F := Ideal)) (iblk m c 2 t) := by
  have h1 : ¬t.val % 4 = 3 := by omega
  rw [outsAt0_A m c t h0 h1, left_first_total_fn, left_first_acc_fn]
  exact ⟨rfl, rfl⟩

theorem carried_next (c : Dev nD) (t : Fin cfg0.N) (h0 : ¬t.val % 4 = 0) :
    (outsAt0 m c t.val t.isLt).2.1 = k0_pay5 (F := Ideal) (iblk m c 0 t) (iblk m c 1 t) (outsAt0 m c (t.val - 1) (Nat.lt_of_le_of_lt (Nat.sub_le _ _) t.isLt)).2.1
    ∧ (outsAt0 m c t.val t.isLt).2.2 = k0_pay6 (F := Ideal) (iblk m c 0 t) (iblk m c 1 t) (outsAt0 m c (t.val - 1) (Nat.lt_of_le_of_lt (Nat.sub_le _ _) t.isLt)).2.2 (iblk m c 2 t) := by
  by_cases h1 : t.val % 4 = 3
  · rw [outsAt0_C m c t h0 h1, left_last_total_fn, left_last_acc_fn]
    exact ⟨rfl, rfl⟩
  · rw [outsAt0_B m c t h0 h1, left_mid_total_fn, left_mid_acc_fn]
    exact ⟨rfl, rfl⟩

theorem result_last (c : Dev nD) (t : Fin cfg0.N) (h1 : t.val % 4 = 3) :
    (outsAt0 m c t.val t.isLt).1
      = k0_pay1 (F := Ideal) (k0_pay6 (F := Ideal) (iblk m c 0 t) (iblk m c 1 t) (outsAt0 m c (t.val - 1) (Nat.lt_of_le_of_lt (Nat.sub_le _ _) t.isLt)).2.2 (iblk m c 2 t))
          (k0_pay5 (F := Ideal) (iblk m c 0 t) (iblk m c 1 t) (outsAt0 m c (t.val - 1) (Nat.lt_of_le_of_lt (Nat.sub_le _ _) t.isLt)).2.1) := by
  have h0 : ¬t.val % 4 = 0 := by omega
  rw [outsAt0_C m c t h0 h1, left_last_result_fn]

/-! ## The weights and the mixed terms over all 4096 anchors, indexed by a natural number -/

/-- The arrays the region finds, as arrays of extended reals. -/
abbrev Xn (c : Dev nD) : SQ.Idx → EReal := V m c main_call0_v8
abbrev An (c : Dev nD) : SA.Idx → EReal := V m c main_call0_v17
abbrev Vb (c : Dev nD) : SV.Idx → EReal := V m c main_call0_v18

/-- The weight of anchor n for query p (zero past the last anchor). -/
def wgtN (c : Dev nD) (p : Fin 16384) (n : ℕ) : EReal :=
  if hn : n < 4096 then wgt (Xn m c) (An m c) p ⟨n, hn⟩ else 0

/-- The weight of anchor n for query p times the value of anchor n at column h (zero past the last anchor). -/
def mixN (c : Dev nD) (p : Fin 16384) (h : Fin 2048) (n : ℕ) : EReal :=
  if hn : n < 4096 then wgt (Xn m c) (An m c) p ⟨n, hn⟩ * Vb m c (ix2 ⟨n, hn⟩ h) else 0

/-- A point's block weight is the weight of the global query row and the global anchor row. -/
theorem weight_global (c : Dev nD) (t : Fin cfg0.N) (r j : Fin 1024) (p : Fin 16384)
    (hp : p.val = 1024 * (t.val / 4) + r.val) :
    blockWgt (iblk m c 0 t) (iblk m c 1 t) r j = wgtN m c p (t.val % 4 * 1024 + j.val) := by
  have hw : t.val % 4 * 1024 + j.val < 4096 := by have := j.isLt; have := Nat.mod_lt t.val (show 0 < 4 by decide); omega
  unfold wgtN
  rw [dif_pos hw]
  unfold blockWgt wgt binned sim
  have e0 : ∀ q : Fin 1024, ((iblk m c 0 t : Vec Ideal S1024x1024 .bf16) (ix2 r q) : EReal) = Xn m c (ix2 p q) := fun q => by
    rw [query_block m c t r q (by have := p.isLt; omega)]
    exact congrArg (fun z => V m c main_call0_v8 (ix2 z q)) (Fin.ext hp.symm)
  have e1 : ∀ q : Fin 1024, ((iblk m c 1 t : Vec Ideal S1024x1024 .bf16) (ix2 j q) : EReal)
      = An m c (ix2 (⟨t.val % 4 * 1024 + j.val, hw⟩ : Fin 4096) q) := fun q => by
    rw [anchor_block m c t j q (by omega)]
    exact congrArg (fun z => V m c main_call0_v17 (ix2 z q)) (Fin.ext (by show 1024 * (t.val % 4) + j.val = t.val % 4 * 1024 + j.val; omega))
  simp only [e0, e1]

theorem value_global (c : Dev nD) (t : Fin cfg0.N) (j : Fin 1024) (h : Fin 2048) (hw : t.val % 4 * 1024 + j.val < 4096) :
    ((iblk m c 2 t : Vec Ideal S1024x2048 .bf16) (ix2 j h) : EReal) = Vb m c (ix2 (⟨t.val % 4 * 1024 + j.val, hw⟩ : Fin 4096) h) := by
  rw [value_block m c t j h (by omega)]
  exact congrArg (fun z => V m c main_call0_v18 (ix2 z h)) (Fin.ext (by show 1024 * (t.val % 4) + j.val = t.val % 4 * 1024 + j.val; omega))

/-- One point's step on the total column. -/
theorem step_total (c : Dev nD) (t : Fin cfg0.N) (xs0 : Vec Ideal S1024x1 .f32) (r : Fin 1024) (u : Fin 1) (p : Fin 16384)
    (hp : p.val = 1024 * (t.val / 4) + r.val) :
    (k0_pay5 (F := Ideal) (iblk m c 0 t) (iblk m c 1 t) xs0 (ix2 r u) : EReal)
      = (xs0 (ix2 r u) : EReal) + ∑ j : Fin 1024, wgtN m c p (t.val % 4 * 1024 + j.val) := by
  refine (total_apply (iblk m c 0 t) (iblk m c 1 t) xs0 r u).trans (congrArg (fun z : EReal => (xs0 (ix2 r u) : EReal) + z) ?_)
  exact Finset.sum_congr rfl fun j _ => weight_global m c t r j p hp

/-- One point's step on the accumulator. -/
theorem step_acc (c : Dev nD) (t : Fin cfg0.N) (xs1 : Vec Ideal S1024x2048 .f32) (r : Fin 1024) (h : Fin 2048) (p : Fin 16384)
    (hp : p.val = 1024 * (t.val / 4) + r.val) :
    (k0_pay6 (F := Ideal) (iblk m c 0 t) (iblk m c 1 t) xs1 (iblk m c 2 t) (ix2 r h) : EReal)
      = (xs1 (ix2 r h) : EReal) + ∑ j : Fin 1024, mixN m c p h (t.val % 4 * 1024 + j.val) := by
  refine (acc_apply (iblk m c 0 t) (iblk m c 1 t) xs1 (iblk m c 2 t) r h).trans (congrArg (fun z : EReal => (xs1 (ix2 r h) : EReal) + z) ?_)
  refine Finset.sum_congr rfl fun j _ => ?_
  have hw : t.val % 4 * 1024 + j.val < 4096 := by have := j.isLt; have := Nat.mod_lt t.val (show 0 < 4 by decide); omega
  rw [weight_global m c t r j p hp, value_global m c t j h hw]
  unfold mixN wgtN
  rw [dif_pos hw, dif_pos hw]

/-! ## The closed form, by induction on the point -/

/-- The closed form of the two running quantities after point n, for query row p = 1024·(n / 4) + r. -/
def Closed (c : Dev nD) (n : ℕ) (hn : n < cfg0.N) (r : Fin 1024) (p : Fin 16384) : Prop :=
  (∀ u : Fin 1, ((outsAt0 m c n hn).2.1 (ix2 r u) : EReal)
      = ∑ s ∈ Finset.range (n % 4 + 1), ∑ j : Fin 1024, wgtN m c p (s * 1024 + j.val))
  ∧ (∀ h : Fin 2048, ((outsAt0 m c n hn).2.2 (ix2 r h) : EReal)
      = ∑ s ∈ Finset.range (n % 4 + 1), ∑ j : Fin 1024, mixN m c p h (s * 1024 + j.val))

set_option maxHeartbeats 1000000 in
/-- At the first anchor block both quantities are block 0's share over zero. -/
theorem closed_first (c : Dev nD) (t : Fin cfg0.N) (h0 : t.val % 4 = 0) (r : Fin 1024) (p : Fin 16384)
    (hp : p.val = 1024 * (t.val / 4) + r.val) : Closed m c t.val t.isLt r p := by
  obtain ⟨e1, e2⟩ := carried_first m c t h0
  refine ⟨fun u => ?_, fun h => ?_⟩
  · rw [e1]
    refine (step_total m c t (k0_pay2 (F := Ideal)) r u p hp).trans ?_
    rw [cleared_total_apply, zero_add, h0, Finset.sum_range_one]
  · rw [e2]
    refine (step_acc m c t (k0_pay3 (F := Ideal)) r h p hp).trans ?_
    rw [cleared_acc_apply, zero_add, h0, Finset.sum_range_one]

set_option maxHeartbeats 1000000 in
/-- At a later anchor block both quantities gain the block's share over what the point before left. -/
theorem closed_next (c : Dev nD) (t : Fin cfg0.N) (h0 : ¬t.val % 4 = 0) (r : Fin 1024) (p : Fin 16384)
    (hp : p.val = 1024 * (t.val / 4) + r.val)
    (ih : Closed m c (t.val - 1) (Nat.lt_of_le_of_lt (Nat.sub_le _ _) t.isLt) r p) : Closed m c t.val t.isLt r p := by
  obtain ⟨e1, e2⟩ := carried_next m c t h0
  obtain ⟨i1, i2⟩ := ih
  have hmod : t.val % 4 = (t.val - 1) % 4 + 1 := by omega
  refine ⟨fun u => ?_, fun h => ?_⟩
  · rw [e1]
    refine (step_total m c t _ r u p hp).trans ?_
    rw [i1 u, hmod, Finset.sum_range_succ (n := (t.val - 1) % 4 + 1)]
  · rw [e2]
    refine (step_acc m c t _ r h p hp).trans ?_
    rw [i2 h, hmod, Finset.sum_range_succ (n := (t.val - 1) % 4 + 1)]

theorem carried (c : Dev nD) : ∀ (n : ℕ) (hn : n < cfg0.N) (r : Fin 1024) (p : Fin 16384), p.val = 1024 * (n / 4) + r.val →
    Closed m c n hn r p := by
  intro n
  induction n with
  | zero => exact fun hn r p hp => closed_first m c ⟨0, hn⟩ rfl r p hp
  | succ n ih =>
    intro hn r p hp
    by_cases h0 : (n + 1) % 4 = 0
    · exact closed_first m c ⟨n + 1, hn⟩ h0 r p hp
    · have hdiv : (n + 1) / 4 = n / 4 := by omega
      exact closed_next m c ⟨n + 1, hn⟩ h0 r p hp (ih (Nat.lt_of_succ_lt hn) r p (by rw [hp, hdiv]))

/-- After the last anchor block the four shares are the whole sums over the 4096 anchors. -/
theorem total_whole (c : Dev nD) (p : Fin 16384) :
    ∑ s ∈ Finset.range (3 + 1), ∑ j : Fin 1024, wgtN m c p (s * 1024 + j.val) = ∑ w : Fin 4096, wgt (Xn m c) (An m c) p w := by
  rw [Cert.LibBlockSum.sum_fin_blocks (wgtN m c p) 4 1024]
  exact Finset.sum_congr rfl fun w _ => by unfold wgtN; rw [dif_pos w.isLt]

theorem acc_whole (c : Dev nD) (p : Fin 16384) (h : Fin 2048) :
    ∑ s ∈ Finset.range (3 + 1), ∑ j : Fin 1024, mixN m c p h (s * 1024 + j.val)
      = ∑ w : Fin 4096, wgt (Xn m c) (An m c) p w * Vb m c (ix2 w h) := by
  rw [Cert.LibBlockSum.sum_fin_blocks (mixN m c p h) 4 1024]
  exact Finset.sum_congr rfl fun w _ => by unfold mixN; rw [dif_pos w.isLt]

/-- The result block a flushing point leaves: at (r, h) the mixed sum over all anchors divided by the total. -/
theorem result_apply (c : Dev nD) (t : Fin cfg0.N) (h1 : t.val % 4 = 3) (r : Fin 1024) (h : Fin 2048) (p : Fin 16384)
    (hp : p.val = 1024 * (t.val / 4) + r.val) :
    ((outsAt0 m c t.val t.isLt).1 (ix2 r h) : EReal) = mixAt (Xn m c) (An m c) (Vb m c) p h := by
  have h0 : ¬t.val % 4 = 0 := by omega
  obtain ⟨e1, e2⟩ := carried_next m c t h0
  obtain ⟨i1, i2⟩ := carried m c t.val t.isLt r p hp
  rw [result_last m c t h1, quotient_apply, ← e2, ← e1, i1 0, i2 h, h1, total_whole, acc_whole]
  rfl

end Cert.RelAttn.Kernel

end
-- ==== Proof.KFinal.lean ====
/-
  The result array after the run.

  Only the last anchor block of each query block writes the result back, and what it writes is, at (r, h), the
  shifted-by-one mean of query row p = 1024·(t / 4) + r at column h: block t / 4 of the specification read through the
  block. Row i of the result lies in the block of point 4·(i / 1024) + 3, so the sixteen written blocks cover the
  array, and the array after the run is the specification of the arrays the region found — the plain program's own
  normalised queries and anchors and the unchanged values.
-/
import proofs.«127795_j83519934038568_2_alg».proof.Proof.KAcc
import proofs.«127795_j83519934038568_2_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Cert.RelAttn.Kernel

open Cert.KernelIdeal Cert.KernelIdeal.Gen

variable (m : (ℓ : Loc nD τ sig) → Buf (Elt Ideal) ℓ) (ρ : Dev nD → PrngReg)

/-- The whole result: the shifted-by-one mean of the arrays the region finds. -/
def result (c : Dev nD) : Buf (Elt Ideal) ((c : Thread nD τ).loc main_v0) := mix (Xn m c) (An m c) (Vb m c)

/-- What a flushing point writes back is its block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush_iff t).mp hf
  obtain ⟨-, -, -, -, -, -, e0, e1⟩ := block_index t
  rw [Cert.KernelIdeal.Value.flushed3]
  funext y
  obtain ⟨r, h, rfl⟩ : ∃ (r : Fin 1024) (h : Fin 2048), y = ix2 r h := ⟨y 0, y 1, eq_ix2 y⟩
  have hN : cfg0.N = 64 := N_0
  have hp : 1024 * (t.val / 4) + r.val < 16384 := by have := t.isLt; have := r.isLt; omega
  show ((outsAt0 m c t.val t.isLt).1 (ix2 r h) : EReal) = result m c (((cfg0.win 3).blk t).view.emb (ix2 r h))
  rw [result_apply m c t h1 r h ⟨_, hp⟩ rfl]
  have he : ((cfg0.win 3).blk t).view.emb (ix2 r h) = ix2 (⟨1024 * (t.val / 4) + r.val, hp⟩ : Fin 16384) h := by
    funext a
    apply Fin.ext
    match a with
    | ⟨0, _⟩ => show win0_3.index t 0 * 1024 + 1 * r.val = 1024 * (t.val / 4) + r.val; rw [e0]; omega
    | ⟨1, _⟩ => show win0_3.index t 1 * 2048 + 1 * h.val = h.val; rw [e1]; omega
  rw [he]
  rfl

/-- An index of the result is in point t's block iff each coordinate is in the block's range on its axis. -/
theorem mem_block (t : Fin cfg0.N) (i : S16384x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v0).slice (win0_3.rect t)).set ↔ _
  rw [View.set_slice_whole, Rect.mem_set_unit]
  exact Iff.rfl

/-- Every index of the result lies in the block of a flushing point: the last anchor block of its query block. -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 64 := N_0
  have hb : 4 * ((i 0).val / 1024) + 3 < cfg0.N := by omega
  have h3 : (⟨4 * ((i 0).val / 1024) + 3, hb⟩ : Fin cfg0.N).val % 4 = 3 := by show (4 * ((i 0).val / 1024) + 3) % 4 = 3; omega
  have hd : (⟨4 * ((i 0).val / 1024) + 3, hb⟩ : Fin cfg0.N).val / 4 = (i 0).val / 1024 := by
    show (4 * ((i 0).val / 1024) + 3) / 4 = (i 0).val / 1024; omega
  obtain ⟨-, -, -, -, -, -, e0, e1⟩ := block_index ⟨4 * ((i 0).val / 1024) + 3, hb⟩
  refine ⟨⟨4 * ((i 0).val / 1024) + 3, hb⟩, (flush_iff _).mpr h3, ?_⟩
  rw [mem_block]
  intro a
  match a with
  | ⟨0, _⟩ =>
    show win0_3.index ⟨4 * ((i 0).val / 1024) + 3, hb⟩ 0 * 1024 ≤ (i 0).val ∧ (i 0).val < win0_3.index ⟨4 * ((i 0).val / 1024) + 3, hb⟩ 0 * 1024 + 1024
    rw [e0, hd]; omega
  | ⟨1, _⟩ =>
    show win0_3.index ⟨4 * ((i 0).val / 1024) + 3, hb⟩ 1 * 2048 ≤ (i 1).val ∧ (i 1).val < win0_3.index ⟨4 * ((i 0).val / 1024) + 3, hb⟩ 1 * 2048 + 2048
    rw [e1]; omega

/-- The result array after the run. -/
theorem final (c : Dev nD) : (dats m 0 c).arrAt 3 cfg0.N = result m c :=
  (dats m 0 c).arrAt_eq_of_cover 3 (result m c) (flushed_eq m c) (covered)

/-- The result is the shifted-by-one mean of the plain program's normalised queries and anchors and of the values. -/
theorem result_eq (c : Dev nD) :
    result m c = mix (Cert.ReferenceIdeal.Read.val_main_v4 (F := Ideal) (m ((c : Thread nD τ).loc main_arg0)))
      (Cert.ReferenceIdeal.Read.val_main_v9 (F := Ideal) (m ((c : Thread nD τ).loc main_arg1)))
      (m ((c : Thread nD τ).loc main_arg2)) := by
  unfold result Xn An Vb
  rw [queries_eq, anchors_eq, values_eq]

/-- The run: every weakly fair execution ends with the result array at the specification and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.RelAttn.Kernel

end
-- ==== Proof.RefRead.lean ====
/-
  The reference's result, read index by index.

  The reference normalises the queries and the anchors, takes the inner products of their rows, rounds each to the
  nearest multiple of the bin width in the straight-through form sim + (round (sim / bin) · bin − sim), subtracts the
  row's maximum, exponentiates, divides by the row's sum and mixes the values with the resulting weights. Stage by
  stage this is the plain softmax-weighted mean of the values of the specification, taken at the reference's own
  normalised arrays: the similarity, the straight-through binned similarity, the row maximum, the weight, the row total,
  and last the mix.
-/
import proofs.«127795_j83519934038568_2_alg».proof.Proof.Gen.ReferenceIdeal.Read
import proofs.«127795_j83519934038568_2_alg».proof.Proof.LibDenseOps
import proofs.«127795_j83519934038568_2_alg».proof.Proof.Spec

noncomputable section

namespace Cert.RelAttn.Ref

open Idealize.ShloMosaic Idealize.ShloMosaic.ValueIdx Cert.ReferenceIdeal Cert.ReferenceIdeal.Gen Cert.ReferenceIdeal.Read Cert.RelAttn Cert.LibRealOps

/-! ## The index functions of the generated reading, at indices written by coordinates -/

theorem lidx10 (p : Fin 16384) (w : Fin 4096) (k : Fin 1024) : lidx_main_v10 (ix2 p w) k = ix2 p k :=
  funext fun a => Fin.ext (by match a with | ⟨0, _⟩ => rfl | ⟨1, _⟩ => rfl)

theorem ridx10 (p : Fin 16384) (w : Fin 4096) (k : Fin 1024) : ridx_main_v10 (ix2 p w) k = ix2 w k :=
  funext fun a => Fin.ext (by match a with | ⟨0, _⟩ => rfl | ⟨1, _⟩ => rfl)

theorem idx21_22 (p : Fin 16384) (w : Fin 4096) : idx_main_v21 (idx_main_v22 (ix2 p w)) = ix1 p :=
  funext fun a => Fin.ext (by match a with | ⟨0, _⟩ => rfl)

theorem idx26_27 (p : Fin 16384) (w : Fin 4096) : idx_main_v26 (idx_main_v27 (ix2 p w)) = ix1 p :=
  funext fun a => Fin.ext (by match a with | ⟨0, _⟩ => rfl)

theorem idx25 (p : Fin 16384) (k : Fin 4096) : idx_main_v25 (ix1 p) k = ix2 p k :=
  funext fun a => Fin.ext (by match a with | ⟨0, _⟩ => rfl | ⟨1, _⟩ => rfl)

theorem lidx29 (p : Fin 16384) (h : Fin 2048) (k : Fin 4096) : lidx_main_v29 (ix2 p h) k = ix2 p k :=
  funext fun a => Fin.ext (by match a with | ⟨0, _⟩ => rfl | ⟨1, _⟩ => rfl)

theorem ridx29 (p : Fin 16384) (h : Fin 2048) (k : Fin 4096) : ridx_main_v29 (ix2 p h) k = ix2 k h :=
  funext fun a => Fin.ext (by match a with | ⟨0, _⟩ => rfl | ⟨1, _⟩ => rfl)

/-! ## Stage by stage -/

variable (x : S16384x1024.Idx → EReal) (a : S4096x1024.Idx → EReal)

/-- The product of the normalised arrays is the similarity. -/
theorem sim_apply (p : Fin 16384) (w : Fin 4096) :
    val_main_v10 (F := Ideal) x a (ix2 p w) = sim (val_main_v4 (F := Ideal) x) (val_main_v9 (F := Ideal) a) p w := by
  rw [val_main_v10_apply]
  unfold sim
  exact Finset.sum_congr rfl fun k _ => by rw [lidx10, ridx10]

/-- The straight-through sum is the specification's. -/
theorem quant_apply (p : Fin 16384) (w : Fin 4096) :
    val_main_v17 (F := Ideal) x a (ix2 p w) = quant (val_main_v4 (F := Ideal) x) (val_main_v9 (F := Ideal) a) p w := by
  rw [val_main_v17_apply, val_main_v16_apply, val_main_v15_apply, val_main_v14_apply, val_main_cst_2_apply,
    val_main_v13_apply, val_main_v12_apply, val_main_v11_apply, val_main_cst_1_apply, sim_apply]
  rfl

/-- The row maximum: the fold of max from −∞ over the row of the straight-through sums, under one more max with −∞. -/
theorem rowMax_apply (p : Fin 16384) :
    val_main_v20 (F := Ideal) x a (ix1 p) = rowMax (val_main_v4 (F := Ideal) x) (val_main_v9 (F := Ideal) a) p := by
  rw [val_main_v20_apply, val_main_v19_apply, val_main_cst_4_apply]
  unfold val_main_v18
  rw [Cert.LibDenseOps.hostRowMax_apply (val_main_v17 (F := Ideal) x a) (val_main_cst_3 (F := Ideal))
    reducesTo_S16384x4096_S16384_d1 (by decide) h_S_ p, val_main_cst_3_apply]
  unfold rowMax
  simp only [quant_apply, Ideal.maximumf_def, Ideal.ofBits_def, ofBits_negInf]

/-- The weight: the exponential of the straight-through sum less the row maximum. -/
theorem refWgt_apply (p : Fin 16384) (w : Fin 4096) :
    val_main_v24 (F := Ideal) x a (ix2 p w) = refWgt (val_main_v4 (F := Ideal) x) (val_main_v9 (F := Ideal) a) p w := by
  rw [val_main_v24_apply, val_main_v23_apply, val_main_v22_apply, val_main_v21_apply, idx21_22, quant_apply,
    Ideal.hostUnary_exp_def, Ideal.subf_def, rowMax_apply]
  rfl

/-- The row total: zero plus the sum of the row's weights. -/
theorem total_apply (p : Fin 16384) :
    val_main_v25 (F := Ideal) x a (ix1 p)
      = 0 + ∑ w' : Fin 4096, refWgt (val_main_v4 (F := Ideal) x) (val_main_v9 (F := Ideal) a) p w' := by
  rw [val_main_v25_apply, val_main_cst_5_apply, Ideal.ofBits_def, Ideal.ofBits_zero_f32]
  exact congrArg (0 + ·) (Finset.sum_congr rfl fun k _ => by rw [idx25, refWgt_apply])

/-- The normalised weight. -/
theorem normWgt_apply (p : Fin 16384) (w : Fin 4096) :
    val_main_v28 (F := Ideal) x a (ix2 p w)
      = Ideal.div (refWgt (val_main_v4 (F := Ideal) x) (val_main_v9 (F := Ideal) a) p w)
          (0 + ∑ w' : Fin 4096, refWgt (val_main_v4 (F := Ideal) x) (val_main_v9 (F := Ideal) a) p w') := by
  rw [val_main_v28_apply, val_main_v27_apply, val_main_v26_apply, idx26_27, refWgt_apply, Ideal.hostDivf_def, total_apply]

/-- The reference's result at an index is the normalise-then-mix mean of the values at its own normalised arrays. -/
theorem ref_apply (v : S4096x2048.Idx → EReal) (i : S16384x2048.Idx) :
    val_main_v29 (F := Ideal) x a v i
      = refAt (val_main_v4 (F := Ideal) x) (val_main_v9 (F := Ideal) a) v (i 0) (i 1) := by
  obtain ⟨p, h, rfl⟩ : ∃ (p : Fin 16384) (h : Fin 2048), i = ix2 p h := ⟨i 0, i 1, eq_ix2 i⟩
  rw [val_main_v29_apply]
  unfold refAt
  exact Finset.sum_congr rfl fun k _ => by rw [lidx29, ridx29, normWgt_apply]

/-- The same, as an equation of arrays. -/
theorem ref_eq (v : S4096x2048.Idx → EReal) :
    val_main_v29 (F := Ideal) x a v = refMix (val_main_v4 (F := Ideal) x) (val_main_v9 (F := Ideal) a) v :=
  funext fun i => ref_apply x a v i

end Cert.RelAttn.Ref

end
-- ==== Proof.RefNorm.lean ====
/-
  The normalised arrays of real arrays are real.

  A row is divided by max (sqrt (0 + the sum of its squares), floor), the floor a positive real. For a row of reals the
  sum of squares is a nonnegative real, its square root a real, the maximum with the floor a real that is at least the
  floor, hence positive, and a real divided by a positive real is a real.
-/
import proofs.«127795_j83519934038568_2_alg».proof.Proof.Gen.ReferenceIdeal.Read
import proofs.«127795_j83519934038568_2_alg».proof.Proof.LibRealOps

noncomputable section

namespace Cert.RelAttn.Ref

open Idealize.ShloMosaic Cert.ReferenceIdeal Cert.ReferenceIdeal.Gen Cert.ReferenceIdeal.Read Cert.RelAttn
open Cert.LibMatChain Cert.Attn Cert.LibRealOps

/-- The divisor of a row: for a finite family of reals, max (sqrt (0 + Σ f²), floor) is a positive real. -/
theorem norm_real_pos {ι : Type*} (s : Finset ι) (f : ι → EReal) (hf : ∀ i, IsReal (f i)) :
    IsReal (max (Ideal.sqrt (0 + ∑ i ∈ s, f i * f i)) (Ideal.ofBits .f32 0x2B8CBCCC#32))
      ∧ 0 < max (Ideal.sqrt (0 + ∑ i ∈ s, f i * f i)) (Ideal.ofBits .f32 0x2B8CBCCC#32) := by
  have hsum : IsReal (∑ i ∈ s, f i * f i) := isReal_sum s _ fun i => isReal_mul (hf i) (hf i)
  have h0 : 0 ≤ ∑ i ∈ s, f i * f i := sum_sq_nonneg s f hf
  rw [zero_add, ofBits_floor]
  refine ⟨isReal_max (isReal_sqrt hsum h0) (isReal_coe _), lt_max_of_lt_right ?_⟩
  exact EReal.coe_pos.mpr floor_pos

/-- The normalised queries are real. -/
theorem xn_real (x : S16384x1024.Idx → EReal) (hx : ∀ i, IsReal (x i)) :
    ∀ i, IsReal (val_main_v4 (F := Ideal) x i) := by
  intro i
  rw [val_main_v4_apply, val_main_v3_apply, val_main_v2_apply, val_main_v1_apply, val_main_cst_apply, val_main_v0_apply,
    val_main_call0_v2_apply, val_main_call0_v1_apply, val_main_call0_cst_apply,
    Ideal.hostDivf_def, Ideal.maximumf_def, Ideal.hostUnary_sqrt_def, Ideal.ofBits_def, Ideal.ofBits_def, Ideal.ofBits_zero_f32]
  simp only [val_main_call0_v0_apply, Ideal.mulf_def]
  obtain ⟨hr, hp⟩ := norm_real_pos Finset.univ (fun k => x (idx_main_call0_v1 (idx_main_call0_v2 (idx_main_v3 i)) k)) fun k => hx _
  exact isReal_div (hx i) hr hp

/-- The normalised anchors are real. -/
theorem an_real (a : S4096x1024.Idx → EReal) (ha : ∀ i, IsReal (a i)) :
    ∀ i, IsReal (val_main_v9 (F := Ideal) a i) := by
  intro i
  rw [val_main_v9_apply, val_main_v8_apply, val_main_v7_apply, val_main_v6_apply, val_main_cst_0_apply, val_main_v5_apply,
    val_main_call1_v2_apply, val_main_call1_v1_apply, val_main_call1_cst_apply,
    Ideal.hostDivf_def, Ideal.maximumf_def, Ideal.hostUnary_sqrt_def, Ideal.ofBits_def, Ideal.ofBits_def, Ideal.ofBits_zero_f32]
  simp only [val_main_call1_v0_apply, Ideal.mulf_def]
  obtain ⟨hr, hp⟩ := norm_real_pos Finset.univ (fun k => a (idx_main_call1_v1 (idx_main_call1_v2 (idx_main_v8 i)) k)) fun k => ha _
  exact isReal_div (ha i) hr hp

end Cert.RelAttn.Ref

end
-- ==== Proof.PreReal.lean ====
/-
  Finite inputs are real.

  The precondition compares the absolute value max x (−x) of every entry of the three arrays with the word of +∞ and
  takes the conjunction of all the comparisons. When it holds, every comparison holds, so every entry has
  max x (−x) < +∞, and such an extended real is a real number: at either infinity the maximum is +∞.
-/
import Idealize.ShloMosaic.Lib.ReduceAll
import Idealize.ShloMosaic.Lib.Pipeline.Value
import Idealize.ShloMosaic.Lib.ValueIdx
import Idealize.ShloMosaic.PureOps.Ideal.Laws
import proofs.«127795_j83519934038568_2_alg».proof.Pre_finite_inputs
import proofs.«127795_j83519934038568_2_alg».proof.Proof.LibMatChain

noncomputable section

namespace Cert.RelAttn.Ref

open Idealize.ShloMosaic Idealize.ShloMosaic.ValueIdx Cert.LibMatChain

/-- The rank-zero shape has one index. -/
local instance subsingleton_scalarIdx : Subsingleton (⟨0, ![]⟩ : Shape).Idx := ⟨fun a b => funext fun d => d.elim0⟩

/-- The word 0x7F800000 is +∞. -/
theorem ofBits_posInf : Ideal.ofBits .f32 0x7F800000#32 = (⊤ : EReal) := by
  simp [Ideal.ofBits, Ideal.ieee]

/-- A comparison "strictly below" that came out 1 holds. -/
theorem lt_of_cmp_olt {x y : EReal} (h : Ideal.cmp .olt x y = 1#1) : x < y := by
  by_contra hn
  simp [Ideal.cmp, hn] at h

/-- One array of the precondition: when the conjunction over all entries of |x| < +∞ is 1, every entry is a real. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) :
    ∀ i, IsReal (x i) := by
  intro i
  have h1 := Host.reduce_andi_all _ _ hr hu ix0 e i
  rw [cmpf_apply, broadcastInDim_apply _ hb _ i ix0 (fun a => a.elim0)] at h1
  have h2 : Ideal.cmp .olt (max (x i) (-(x i))) (Ideal.ofBits .f32 0x7F800000#32) = 1#1 := h1
  rw [ofBits_posInf] at h2
  exact isReal_of_abs_lt_top (lt_of_cmp_olt h2)

/-- The precondition's three conjuncts: every entry of the queries, the anchors and the values is a real. -/
theorem pre_real [Cert.Pre_finite_inputs.Facts] (x : Cert.Pre_finite_inputs.S16384x1024.Idx → EReal)
    (a : Cert.Pre_finite_inputs.S4096x1024.Idx → EReal) (v : Cert.Pre_finite_inputs.S4096x2048.Idx → EReal)
    (h : Cert.Pre_finite_inputs.fn (F := Ideal) x a v = fun _ => 1#1) :
    (∀ i, IsReal (x i)) ∧ (∀ i, IsReal (a i)) ∧ (∀ i, IsReal (v i)) := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨all_real x _ _ _ h1, all_real a _ _ _ h2, all_real v _ _ _ h3⟩

end Cert.RelAttn.Ref

end
-- ==== Proof.lean ====
/-
  A kernel that fuses "relative attention" — similarities of L2-normalised queries and anchors, rounded to bins of
  width 0.05, softmax over the 4096 anchors, mix of the value rows — against the plain program.

  Both programs first divide every query row and every anchor row by the larger of its Euclidean norm and a tiny floor;
  these are the same operations in the same order on both sides. With s(p, w) the inner product of normalised query p
  and normalised anchor w, and b(p, w) = round (s / bin) · bin (ties to even):

  * the kernel walks the anchors in four blocks of 1024 per block of 1024 queries, keeping a running total
    l(p) = Σ_w exp (b(p, w) − 1) and a running mix acc(p, h) = Σ_w exp (b(p, w) − 1) · v(w, h); after the fourth block
    it writes acc / l. Sums over the extended reals are commutative and associative, so the four partial sums are
    the whole sums over the 4096 anchors, whatever the inputs;
  * the plain program takes q = s + (b − s), subtracts the row maximum M, and computes
    Σ_w (exp (q(p, w) − M(p)) / Σ_w' exp (q(p, w') − M(p))) · v(w, h).

  On real inputs the two agree: q = b; exp (b − 1) = exp (b − M) · exp (M − 1), and the positive factor exp (M − 1)
  cancels between the mix and the total; a positive real total passes through the finite sum. These three steps
  fail at the infinities, so the proof uses the precondition: every entry of the three inputs is finite, hence a real
  number, and then so is every normalised entry (a real divided by a positive real).

  The three frames are the generated ones (the plain program's is its run with the result dropped); the kernel's
  idealisation rewrote nothing.
-/
import proofs.«127795_j83519934038568_2_alg».proof.Defs
import proofs.«127795_j83519934038568_2_alg».proof.Proof.Gen.Kernel
import proofs.«127795_j83519934038568_2_alg».proof.Proof.Gen.Kernel.Skeleton
import proofs.«127795_j83519934038568_2_alg».proof.Proof.Gen.Kernel.Launch
import proofs.«127795_j83519934038568_2_alg».proof.Proof.Gen.Kernel.Points
import proofs.«127795_j83519934038568_2_alg».proof.Proof.Gen.Kernel.Frame
import proofs.«127795_j83519934038568_2_alg».proof.Proof.Gen.KernelIdeal
import proofs.«127795_j83519934038568_2_alg».proof.Proof.Gen.KernelIdeal.Skeleton
import proofs.«127795_j83519934038568_2_alg».proof.Proof.Gen.KernelIdeal.Launch
import proofs.«127795_j83519934038568_2_alg».proof.Proof.Gen.KernelIdeal.Points
import proofs.«127795_j83519934038568_2_alg».proof.Proof.Gen.KernelIdeal.Frame
import proofs.«127795_j83519934038568_2_alg».proof.Proof.Gen.ReferenceIdeal
import proofs.«127795_j83519934038568_2_alg».proof.Proof.Gen.Pre_finite_inputs
import proofs.«127795_j83519934038568_2_alg».proof.Proof.Gen.KernelIdeal.Value
import proofs.«127795_j83519934038568_2_alg».proof.Proof.Gen.ReferenceIdeal.Run
import proofs.«127795_j83519934038568_2_alg».proof.Proof.Gen.ReferenceIdeal.Read
import proofs.«127795_j83519934038568_2_alg».proof.Proof.SoftmaxLaw
import proofs.«127795_j83519934038568_2_alg».proof.Proof.KFinal
import proofs.«127795_j83519934038568_2_alg».proof.Proof.RefRead
import proofs.«127795_j83519934038568_2_alg».proof.Proof.RefNorm
import proofs.«127795_j83519934038568_2_alg».proof.Proof.PreReal
import Idealize.ShloMosaic.Adequacy
import Idealize.ShloMosaic.Init

noncomputable section

namespace Cert.Proof

open Idealize.ShloMosaic Idealize.SL.Sem

/-- The two idealised programs end with equal results: the kernel's result array is the shifted-by-one mean of the
    plain program's own normalised arrays, the plain program's result is the plain softmax mean of them, and on the
    real arrays the precondition gives the two means are equal. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨fun c => Cert.RelAttn.Kernel.result m c, Cert.RelAttn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha, hv⟩ := Cert.RelAttn.Ref.pre_real _ _ _ (hpre c)
  rw [Cert.ReferenceIdeal.Read.val_main_v29_eq, (hagree c).1, (hagree c).2.1, (hagree c).2.2]
  refine (Cert.RelAttn.Ref.ref_eq _ _ _).trans ?_
  refine (Cert.RelAttn.refMix_eq_mix _ _ _ (Cert.RelAttn.Ref.xn_real _ hx) (Cert.RelAttn.Ref.an_real _ ha) hv).trans ?_
  exact (Cert.RelAttn.Kernel.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
